-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x900x256 : Shape := ⟨3, ![8, 900, 256]⟩
abbrev S8x900x4 : Shape := ⟨3, ![8, 900, 4]⟩
abbrev S2000x4 : Shape := ⟨2, ![2000, 4]⟩
abbrev S2000x256 : Shape := ⟨2, ![2000, 256]⟩
abbrev S_ : Shape := ⟨0, ![]⟩

class Facts : Prop where
  bcast_S_S8x900x256 : S_.BroadcastsInDim S8x900x256 (![] : Fin 0 → Fin S8x900x256.rank)
  reducesTo_S8x900x256_S_d0_1_2 : S8x900x256.ReducesTo [0, 1, 2] S_
  h_S_ : 0 < S_.numel
  bcast_S_S8x900x4 : S_.BroadcastsInDim S8x900x4 (![] : Fin 0 → Fin S8x900x4.rank)
  reducesTo_S8x900x4_S_d0_1_2 : S8x900x4.ReducesTo [0, 1, 2] S_
  bcast_S_S2000x4 : S_.BroadcastsInDim S2000x4 (![] : Fin 0 → Fin S2000x4.rank)
  reducesTo_S2000x4_S_d0_1 : S2000x4.ReducesTo [0, 1] S_
  bcast_S_S2000x256 : S_.BroadcastsInDim S2000x256 (![] : Fin 0 → Fin S2000x256.rank)
  reducesTo_S2000x256_S_d0_1 : S2000x256.ReducesTo [0, 1] S_

variable [Facts]

def fn_part1 {F : FTy → Type} [FloatOps F] (main_v13 : IVec S_ 1) (main_v16 : IVec S2000x256 1) : IVec S_ 1 :=
  let main_c_5 : IVec S_ 1 := constantI S_ 1 1#1
  let main_v17 : IVec S_ 1 := (fun x v => Host.reduce IntOp.andi x v reducesTo_S2000x256_S_d0_1 h_S_) main_v16 main_c_5
  let main_v18 : IVec S_ 1 := andi main_v13 main_v17
  main_v18

def fn {F : FTy → Type} [FloatOps F] (main_arg0 : FVec F S8x900x256 .f32) (main_arg1 : FVec F S8x900x4 .f32) (main_arg2 : FVec F S2000x4 .f32) (main_arg3 : FVec F S2000x256 .f32) : IVec S_ 1 :=
  let main_v0 : FVec F S8x900x256 .f32 := Host.absf main_arg0
  let main_cst : FVec F S_ .f32 := constant S_ .f32 0x7F800000#32
  let main_v1 : FVec F S8x900x256 .f32 := broadcastInDim S8x900x256 ![] bcast_S_S8x900x256 main_cst
  let main_v2 : IVec S8x900x256 1 := cmpf .olt main_v0 main_v1
  let main_c : IVec S_ 1 := constantI S_ 1 1#1
  let main_v3 : IVec S_ 1 := (fun x v => Host.reduce IntOp.andi x v reducesTo_S8x900x256_S_d0_1_2 h_S_) main_v2 main_c
  let main_v4 : FVec F S8x900x4 .f32 := Host.absf main_arg1
  let main_cst_0 : FVec F S_ .f32 := constant S_ .f32 0x7F800000#32
  let main_v5 : FVec F S8x900x4 .f32 := broadcastInDim S8x900x4 ![] bcast_S_S8x900x4 main_cst_0
  let main_v6 : IVec S8x900x4 1 := cmpf .olt main_v4 main_v5
  let main_c_1 : IVec S_ 1 := constantI S_ 1 1#1
  let main_v7 : IVec S_ 1 := (fun x v => Host.reduce IntOp.andi x v reducesTo_S8x900x4_S_d0_1_2 h_S_) main_v6 main_c_1
  let main_v8 : IVec S_ 1 := andi main_v3 main_v7
  let main_v9 : FVec F S2000x4 .f32 := Host.absf main_arg2
  let main_cst_2 : FVec F S_ .f32 := constant S_ .f32 0x7F800000#32
  let main_v10 : FVec F S2000x4 .f32 := broadcastInDim S2000x4 ![] bcast_S_S2000x4 main_cst_2
  let main_v11 : IVec S2000x4 1 := cmpf .olt main_v9 main_v10
  let main_c_3 : IVec S_ 1 := constantI S_ 1 1#1
  let main_v12 : IVec S_ 1 := (fun x v => Host.reduce IntOp.andi x v reducesTo_S2000x4_S_d0_1 h_S_) main_v11 main_c_3
  let main_v13 : IVec S_ 1 := andi main_v8 main_v12
  let main_v14 : FVec F S2000x256 .f32 := Host.absf main_arg3
  let main_cst_4 : FVec F S_ .f32 := constant S_ .f32 0x7F800000#32
  let main_v15 : FVec F S2000x256 .f32 := broadcastInDim S2000x256 ![] bcast_S_S2000x256 main_cst_4
  let main_v16 : IVec S2000x256 1 := cmpf .olt main_v14 main_v15
  fn_part1 (F := F) main_v13 main_v16
-- ==== Kernel.lean ====
abbrev S8x900x256 : Shape := ⟨3, ![8, 900, 256]⟩
abbrev S8x900x4 : Shape := ⟨3, ![8, 900, 4]⟩
abbrev S2000x4 : Shape := ⟨2, ![2000, 4]⟩
abbrev S2000x256 : Shape := ⟨2, ![2000, 256]⟩
abbrev S7200x256 : Shape := ⟨2, ![7200, 256]⟩
abbrev S7200x4 : Shape := ⟨2, ![7200, 4]⟩
abbrev S_ : Shape := ⟨0, ![]⟩
abbrev S2000 : Shape := ⟨1, ![2000]⟩
abbrev S2000x1 : Shape := ⟨2, ![2000, 1]⟩
abbrev S256x2000 : Shape := ⟨2, ![256, 2000]⟩
abbrev S7200x2000 : Shape := ⟨2, ![7200, 2000]⟩
abbrev S360x256 : Shape := ⟨2, ![360, 256]⟩
abbrev S360x4 : Shape := ⟨2, ![360, 4]⟩
abbrev S360x2000 : Shape := ⟨2, ![360, 2000]⟩
abbrev S360x1 : Shape := ⟨2, ![360, 1]⟩
abbrev S1x2000 : Shape := ⟨2, ![1, 2000]⟩
abbrev S360 : Shape := ⟨1, ![360]⟩
abbrev S8x900x2000 : Shape := ⟨3, ![8, 900, 2000]⟩

abbrev nBuf : Space → Nat
  | .hbm => 17
  | .vmem => 8
  | .smem => 0
  | _ => 0

abbrev bufTy : (tb : Table) → Fin (tcTables nBuf tb) → BufTy
  | .hbm, ⟨0, _⟩ => ⟨S8x900x256, .f32⟩
  | .hbm, ⟨1, _⟩ => ⟨S8x900x4, .f32⟩
  | .hbm, ⟨2, _⟩ => ⟨S2000x4, .f32⟩
  | .hbm, ⟨3, _⟩ => ⟨S2000x256, .f32⟩
  | .hbm, ⟨4, _⟩ => ⟨S7200x256, .f32⟩
  | .hbm, ⟨5, _⟩ => ⟨S7200x4, .f32⟩
  | .hbm, ⟨6, _⟩ => ⟨S_, .f32⟩
  | .hbm, ⟨7, _⟩ => ⟨S2000, .f32⟩
  | .hbm, ⟨8, _⟩ => ⟨S2000x1, .f32⟩
  | .hbm, ⟨9, _⟩ => ⟨S_, .f32⟩
  | .hbm, ⟨10, _⟩ => ⟨S2000x1, .f32⟩
  | .hbm, ⟨11, _⟩ => ⟨S2000x1, .f32⟩
  | .hbm, ⟨12, _⟩ => ⟨S2000x256, .f32⟩
  | .hbm, ⟨13, _⟩ => ⟨S2000x256, .f32⟩
  | .hbm, ⟨14, _⟩ => ⟨S256x2000, .f32⟩
  | .hbm, ⟨15, _⟩ => ⟨S7200x2000, .f32⟩
  | .hbm, ⟨16, _⟩ => ⟨S8x900x2000, .f32⟩
  | .local _ .vmem, ⟨0, _⟩ => ⟨S360x256, .f32⟩
  | .local _ .vmem, ⟨1, _⟩ => ⟨S360x256, .f32⟩
  | .local _ .vmem, ⟨2, _⟩ => ⟨S360x4, .f32⟩
  | .local _ .vmem, ⟨3, _⟩ => ⟨S360x4, .f32⟩
  | .local _ .vmem, ⟨4, _⟩ => ⟨S2000x4, .f32⟩
  | .local _ .vmem, ⟨5, _⟩ => ⟨S256x2000, .f32⟩
  | .local _ .vmem, ⟨6, _⟩ => ⟨S360x2000, .f32⟩
  | .local _ .vmem, ⟨7, _⟩ => ⟨S360x2000, .f32⟩
  | _, _ => ⟨S8x900x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S360x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S360x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2000x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S360x2000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x900x256_S7200x256 : S8x900x256.ShapeCasts S7200x256
  shapeCasts_S8x900x4_S7200x4 : S8x900x4.ShapeCasts S7200x4
  reducesTo_S2000x256_S2000_d1 : S2000x256.ReducesTo [1] S2000
  h_S_ : 0 < S_.numel
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x256_0_1 : S2000x1.BroadcastsInDim S2000x256 (![0, 1] : Fin 2 → Fin S2000x256.rank)
  transposes_S2000x256_S256x2000_1_0 : S2000x256.Transposes [1, 0] S256x2000
  inb_S360x256_S360x256_0_0 : ∀ a, (![0, 0] : Fin 2 → Nat) a + S360x256.size a ≤ S360x256.size a
  h_S360x256 : 0 < S360x256.numel
  shapeCasts_S360x256_S360x256 : S360x256.ShapeCasts S360x256
  inb_S360x4_S360x4_0_0 : ∀ a, (![0, 0] : Fin 2 → Nat) a + S360x4.size a ≤ S360x4.size a
  h_S360x4 : 0 < S360x4.numel
  shapeCasts_S360x4_S360x4 : S360x4.ShapeCasts S360x4
  inb_S2000x4_S2000x4_0_0 : ∀ a, (![0, 0] : Fin 2 → Nat) a + S2000x4.size a ≤ S2000x4.size a
  h_S2000x4 : 0 < S2000x4.numel
  inb_S256x2000_S256x2000_0_0 : ∀ a, (![0, 0] : Fin 2 → Nat) a + S256x2000.size a ≤ S256x2000.size a
  h_S256x2000 : 0 < S256x2000.numel
  shapeCasts_S256x2000_S256x2000 : S256x2000.ShapeCasts S256x2000
  bitsLt_bf16_f32 : FTy.bits .bf16 < FTy.bits .f32
  slices_S360x4_o0_0_S360x1 : S360x4.Slices ![0, 0] S360x1
  slices_S2000x4_o0_0_S2000x1 : S2000x4.Slices ![0, 0] S2000x1
  shapeCasts_S2000x1_S2000 : S2000x1.ShapeCasts S2000
  shapeCasts_S2000_S1x2000 : S2000.ShapeCasts S1x2000
  broadcasts_S360x1_S360x2000 : S360x1.Broadcasts S360x2000
  broadcasts_S1x2000_S360x2000 : S1x2000.Broadcasts S360x2000
  slices_S360x4_o0_1_S360x1 : S360x4.Slices ![0, 1] S360x1
  slices_S2000x4_o0_1_S2000x1 : S2000x4.Slices ![0, 1] S2000x1
  slices_S360x4_o0_2_S360x1 : S360x4.Slices ![0, 2] S360x1
  slices_S2000x4_o0_2_S2000x1 : S2000x4.Slices ![0, 2] S2000x1
  slices_S360x4_o0_3_S360x1 : S360x4.Slices ![0, 3] S360x1
  slices_S2000x4_o0_3_S2000x1 : S2000x4.Slices ![0, 3] S2000x1
  shapeCasts_S360x1_S360 : S360x1.ShapeCasts S360
  shapeCasts_S360_S360x1 : S360.ShapeCasts S360x1
  inb_S360x2000_S360x2000_0_0 : ∀ a, (![0, 0] : Fin 2 → Nat) a + S360x2000.size a ≤ S360x2000.size a
  h_S360x2000 : 0 < S360x2000.numel
  shapeCasts_S7200x2000_S8x900x2000 : S7200x2000.ShapeCasts S8x900x2000
  dot_S360x256_S256x2000_S360x2000_1_0_0_1_n_n_wf : DotDims.WF S360x256 S256x2000 S360x2000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S360x256.size a ≤ S7200x256.size a
  hwx0_0 : ∀ i : grid0.Coords, EltTy.bits .f32 = 32 ∨ (Rect.block (s := S7200x256) S360x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S360x4.size a ≤ S7200x4.size a
  hwx0_1 : ∀ i : grid0.Coords, EltTy.bits .f32 = 32 ∨ (Rect.block (s := S7200x4) S360x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2000x4.size a ≤ S2000x4.size a
  hwx0_2 : ∀ i : grid0.Coords, EltTy.bits .f32 = 32 ∨ (Rect.block (s := S2000x4) S2000x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2000.size a ≤ S256x2000.size a
  hwx0_3 : ∀ i : grid0.Coords, EltTy.bits .f32 = 32 ∨ (Rect.block (s := S256x2000) S256x2000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S360x2000.size a ≤ S7200x2000.size a
  hwx0_4 : ∀ i : grid0.Coords, EltTy.bits .f32 = 32 ∨ (Rect.block (s := S7200x2000) S360x2000.size (cc0_transform_4 i) (hinb0_4 i)).WholeWords (EltTy.packing .f32)

variable [Facts₀]

def dot_S360x256_S256x2000_S360x2000_1_0_0_1_n_n : DotDims S360x256 S256x2000 S360x2000 where
  lhsContracting := [1]
  rhsContracting := [0]
  lhsNonContracting := [0]
  rhsNonContracting := [1]
  lhsBatch := []
  rhsBatch := []
  wf := dot_S360x256_S256x2000_S360x2000_1_0_0_1_n_n_wf

abbrev win0_0 : Pipeline.Window sig grid0 :=
  Pipeline.Window.ofSpec (Memref.whole main_v0) S360x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S360x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x2000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S360x2000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x900x256 : Shape := ⟨3, ![8, 900, 256]⟩
abbrev S8x900x4 : Shape := ⟨3, ![8, 900, 4]⟩
abbrev S2000x4 : Shape := ⟨2, ![2000, 4]⟩
abbrev S2000x256 : Shape := ⟨2, ![2000, 256]⟩
abbrev S7200x256 : Shape := ⟨2, ![7200, 256]⟩
abbrev S_ : Shape := ⟨0, ![]⟩
abbrev S7200x4 : Shape := ⟨2, ![7200, 4]⟩
abbrev S2000 : Shape := ⟨1, ![2000]⟩
abbrev S2000x1 : Shape := ⟨2, ![2000, 1]⟩
abbrev S7200x2000 : Shape := ⟨2, ![7200, 2000]⟩
abbrev S7200x1x4 : Shape := ⟨3, ![7200, 1, 4]⟩
abbrev S1x2000x4 : Shape := ⟨3, ![1, 2000, 4]⟩
abbrev S7200x2000x4 : Shape := ⟨3, ![7200, 2000, 4]⟩
abbrev S7200x1 : Shape := ⟨2, ![7200, 1]⟩
abbrev S7200 : Shape := ⟨1, ![7200]⟩
abbrev S7200x2 : Shape := ⟨2, ![7200, 2]⟩
abbrev S7200x1x2 : Shape := ⟨3, ![7200, 1, 2]⟩
abbrev S2000x2 : Shape := ⟨2, ![2000, 2]⟩
abbrev S1x2000x2 : Shape := ⟨3, ![1, 2000, 2]⟩
abbrev S7200x2000x2 : Shape := ⟨3, ![7200, 2000, 2]⟩
abbrev S7200x2000x1 : Shape := ⟨3, ![7200, 2000, 1]⟩
abbrev S1x2000 : Shape := ⟨2, ![1, 2000]⟩
abbrev S8x900x2000 : Shape := ⟨3, ![8, 900, 2000]⟩

abbrev nBuf : Space → Nat
  | .hbm => 201
  | .vmem => 0
  | .smem => 0
  | _ => 0

abbrev hbmTy0_0 (i : Nat) : BufTy := match i % 128 with
  | 0 => ⟨S8x900x256, .f32⟩
  | 1 => ⟨S8x900x4, .f32⟩
  | 2 => ⟨S2000x4, .f32⟩
  | 3 => ⟨S2000x256, .f32⟩
  | 4 => ⟨S7200x256, .f32⟩
  | 5 => ⟨S7200x256, .f32⟩
  | 6 => ⟨S7200x256, .f32⟩
  | 7 => ⟨S_, .f32⟩
  | 8 => ⟨S7200x256, .f32⟩
  | 9 => ⟨S7200x256, .f32⟩
  | 10 => ⟨S_, .f32⟩
  | 11 => ⟨S7200x256, .f32⟩
  | 12 => ⟨S7200x256, .f32⟩
  | 13 => ⟨S_, .f32⟩
  | 14 => ⟨S_, .f32⟩
  | 15 => ⟨S_, .f32⟩
  | 16 => ⟨S7200x256, .f32⟩
  | 17 => ⟨S7200x256, .f32⟩
  | 18 => ⟨S_, .f32⟩
  | 19 => ⟨S7200x256, .f32⟩
  | 20 => ⟨S7200x256, .f32⟩
  | 21 => ⟨S7200x4, .f32⟩
  | 22 => ⟨S_, .f32⟩
  | 23 => ⟨S2000, .f32⟩
  | 24 => ⟨S2000x1, .f32⟩
  | 25 => ⟨S_, .f32⟩
  | 26 => ⟨S2000x1, .f32⟩
  | 27 => ⟨S2000x1, .f32⟩
  | 28 => ⟨S2000x256, .f32⟩
  | 29 => ⟨S2000x256, .f32⟩
  | 30 => ⟨S7200x2000, .f32⟩
  | 31 => ⟨S7200x2000, .f32⟩
  | 32 => ⟨S7200x1x4, .f32⟩
  | 33 => ⟨S1x2000x4, .f32⟩
  | 34 => ⟨S7200x2000x4, .f32⟩
  | 35 => ⟨S7200x2000x4, .f32⟩
  | 36 => ⟨S7200x2000x4, .f32⟩
  | 37 => ⟨S7200x2000x4, .f32⟩
  | 38 => ⟨S_, .f32⟩
  | 39 => ⟨S7200x2000, .f32⟩
  | 40 => ⟨S7200x1, .f32⟩
  | 41 => ⟨S7200, .f32⟩
  | 42 => ⟨S7200x1, .f32⟩
  | 43 => ⟨S7200, .f32⟩
  | 44 => ⟨S7200x1, .f32⟩
  | 45 => ⟨S7200, .f32⟩
  | 46 => ⟨S7200x1, .f32⟩
  | 47 => ⟨S7200, .f32⟩
  | 48 => ⟨S_, .f32⟩
  | 49 => ⟨S7200, .f32⟩
  | 50 => ⟨S7200, .f32⟩
  | 51 => ⟨S7200, .f32⟩
  | 52 => ⟨S_, .f32⟩
  | 53 => ⟨S7200, .f32⟩
  | 54 => ⟨S7200, .f32⟩
  | 55 => ⟨S7200, .f32⟩
  | 56 => ⟨S_, .f32⟩
  | 57 => ⟨S7200, .f32⟩
  | 58 => ⟨S7200, .f32⟩
  | 59 => ⟨S7200, .f32⟩
  | 60 => ⟨S_, .f32⟩
  | 61 => ⟨S7200, .f32⟩
  | 62 => ⟨S7200, .f32⟩
  | 63 => ⟨S7200, .f32⟩
  | 64 => ⟨S7200x1, .f32⟩
  | 65 => ⟨S7200x1, .f32⟩
  | 66 => ⟨S7200x1, .f32⟩
  | 67 => ⟨S7200x1, .f32⟩
  | 68 => ⟨S7200x4, .f32⟩
  | 69 => ⟨S2000x1, .f32⟩
  | 70 => ⟨S2000, .f32⟩
  | 71 => ⟨S2000x1, .f32⟩
  | 72 => ⟨S2000, .f32⟩
  | 73 => ⟨S2000x1, .f32⟩
  | 74 => ⟨S2000, .f32⟩
  | 75 => ⟨S2000x1, .f32⟩
  | 76 => ⟨S2000, .f32⟩
  | 77 => ⟨S_, .f32⟩
  | 78 => ⟨S2000, .f32⟩
  | 79 => ⟨S2000, .f32⟩
  | 80 => ⟨S2000, .f32⟩
  | 81 => ⟨S_, .f32⟩
  | 82 => ⟨S2000, .f32⟩
  | 83 => ⟨S2000, .f32⟩
  | 84 => ⟨S2000, .f32⟩
  | 85 => ⟨S_, .f32⟩
  | 86 => ⟨S2000, .f32⟩
  | 87 => ⟨S2000, .f32⟩
  | 88 => ⟨S2000, .f32⟩
  | 89 => ⟨S_, .f32⟩
  | 90 => ⟨S2000, .f32⟩
  | 91 => ⟨S2000, .f32⟩
  | 92 => ⟨S2000, .f32⟩
  | 93 => ⟨S2000x1, .f32⟩
  | 94 => ⟨S2000x1, .f32⟩
  | 95 => ⟨S2000x1, .f32⟩
  | 96 => ⟨S2000x1, .f32⟩
  | 97 => ⟨S2000x4, .f32⟩
  | 98 => ⟨S7200x1, .f32⟩
  | 99 => ⟨S7200, .f32⟩
  | 100 => ⟨S7200x1, .f32⟩
  | 101 => ⟨S7200, .f32⟩
  | 102 => ⟨S7200, .f32⟩
  | 103 => ⟨S7200x1, .f32⟩
  | 104 => ⟨S7200, .f32⟩
  | 105 => ⟨S7200x1, .f32⟩
  | 106 => ⟨S7200, .f32⟩
  | 107 => ⟨S7200, .f32⟩
  | 108 => ⟨S7200, .f32⟩
  | 109 => ⟨S2000x1, .f32⟩
  | 110 => ⟨S2000, .f32⟩
  | 111 => ⟨S2000x1, .f32⟩
  | 112 => ⟨S2000, .f32⟩
  | 113 => ⟨S2000, .f32⟩
  | 114 => ⟨S2000x1, .f32⟩
  | 115 => ⟨S2000, .f32⟩
  | 116 => ⟨S2000x1, .f32⟩
  | 117 => ⟨S2000, .f32⟩
  | 118 => ⟨S2000, .f32⟩
  | 119 => ⟨S2000, .f32⟩
  | 120 => ⟨S7200x2, .f32⟩
  | 121 => ⟨S7200x1x2, .f32⟩
  | 122 => ⟨S2000x2, .f32⟩
  | 123 => ⟨S1x2000x2, .f32⟩
  | 124 => ⟨S7200x2000x2, .f32⟩
  | 125 => ⟨S7200x2000x2, .f32⟩
  | 126 => ⟨S7200x2000x2, .f32⟩
  | 127 => ⟨S7200x2, .f32⟩
  | _ => ⟨S8x900x256, .f32⟩

abbrev hbmTy0_1 (i : Nat) : BufTy := match i % 128 with
  | 0 => ⟨S7200x1x2, .f32⟩
  | 1 => ⟨S2000x2, .f32⟩
  | 2 => ⟨S1x2000x2, .f32⟩
  | 3 => ⟨S7200x2000x2, .f32⟩
  | 4 => ⟨S7200x2000x2, .f32⟩
  | 5 => ⟨S7200x2000x2, .f32⟩
  | 6 => ⟨S7200x2000x2, .f32⟩
  | 7 => ⟨S_, .f32⟩
  | 8 => ⟨S_, .f32⟩
  | 9 => ⟨S7200x2000x2, .f32⟩
  | 10 => ⟨S7200x2000x2, .f32⟩
  | 11 => ⟨S7200x2000x1, .f32⟩
  | 12 => ⟨S7200x2000, .f32⟩
  | 13 => ⟨S7200x2000x1, .f32⟩
  | 14 => ⟨S7200x2000, .f32⟩
  | 15 => ⟨S7200x2000, .f32⟩
  | 16 => ⟨S7200x1, .f32⟩
  | 17 => ⟨S1x2000, .f32⟩
  | 18 => ⟨S7200x2000, .f32⟩
  | 19 => ⟨S7200x2000, .f32⟩
  | 20 => ⟨S7200x2000, .f32⟩
  | 21 => ⟨S7200x2000, .f32⟩
  | 22 => ⟨S_, .f32⟩
  | 23 => ⟨S7200x2000, .f32⟩
  | 24 => ⟨S7200x2000, .f32⟩
  | 25 => ⟨S7200x2000, .f32⟩
  | 26 => ⟨S7200x2, .f32⟩
  | 27 => ⟨S7200x1x2, .f32⟩
  | 28 => ⟨S2000x2, .f32⟩
  | 29 => ⟨S1x2000x2, .f32⟩
  | 30 => ⟨S7200x2000x2, .f32⟩
  | 31 => ⟨S7200x2000x2, .f32⟩
  | 32 => ⟨S7200x2000x2, .f32⟩
  | 33 => ⟨S7200x2, .f32⟩
  | 34 => ⟨S7200x1x2, .f32⟩
  | 35 => ⟨S2000x2, .f32⟩
  | 36 => ⟨S1x2000x2, .f32⟩
  | 37 => ⟨S7200x2000x2, .f32⟩
  | 38 => ⟨S7200x2000x2, .f32⟩
  | 39 => ⟨S7200x2000x2, .f32⟩
  | 40 => ⟨S7200x2000x2, .f32⟩
  | 41 => ⟨S_, .f32⟩
  | 42 => ⟨S_, .f32⟩
  | 43 => ⟨S7200x2000x2, .f32⟩
  | 44 => ⟨S7200x2000x2, .f32⟩
  | 45 => ⟨S7200x2000x1, .f32⟩
  | 46 => ⟨S7200x2000, .f32⟩
  | 47 => ⟨S7200x2000x1, .f32⟩
  | 48 => ⟨S7200x2000, .f32⟩
  | 49 => ⟨S7200x2000, .f32⟩
  | 50 => ⟨S7200x2000, .f32⟩
  | 51 => ⟨S_, .f32⟩
  | 52 => ⟨S7200x2000, .f32⟩
  | 53 => ⟨S7200x2000, .f32⟩
  | 54 => ⟨S7200x2000, .f32⟩
  | 55 => ⟨S7200x2000, .f32⟩
  | 56 => ⟨S_, .f32⟩
  | 57 => ⟨S_, .f32⟩
  | 58 => ⟨S7200x2000, .f32⟩
  | 59 => ⟨S7200x2000, .f32⟩
  | 60 => ⟨S7200x2000, .f32⟩
  | 61 => ⟨S_, .f32⟩
  | 62 => ⟨S7200x2000, .f32⟩
  | 63 => ⟨S7200x2000, .f32⟩
  | 64 => ⟨S_, .f32⟩
  | 65 => ⟨S7200x2000, .f32⟩
  | 66 => ⟨S7200x2000, .f32⟩
  | 67 => ⟨S7200x2000, .f32⟩
  | 68 => ⟨S_, .f32⟩
  | 69 => ⟨S7200x2000, .f32⟩
  | 70 => ⟨S7200x2000, .f32⟩
  | 71 => ⟨S7200x2000, .f32⟩
  | 72 => ⟨S8x900x2000, .f32⟩
  | _ => ⟨S8x900x256, .f32⟩

abbrev hbmTy (i : Nat) : BufTy := match i / 128 with
  | 0 => hbmTy0_0 i
  | 1 => hbmTy0_1 i
  | _ => ⟨S8x900x256, .f32⟩

abbrev bufTy : (tb : Table) → Fin (tcTables nBuf tb) → BufTy
  | .hbm, ⟨i, _⟩ => hbmTy i
  | _, _ => ⟨S8x900x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_14 : Ref sig .tc := ⟨.hbm, 135, rfl⟩
abbrev main_call1_v0 : Ref sig .tc := ⟨.hbm, 136, rfl⟩
abbrev main_call1_v1 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_15 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_cst_16 : Ref sig .tc := ⟨.hbm, 169, rfl⟩
abbrev main_call2_v0 : Ref sig .tc := ⟨.hbm, 170, rfl⟩
abbrev main_call2_v1 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_cst_17 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_cst_18 : Ref sig .tc := ⟨.hbm, 184, rfl⟩
abbrev main_call3_v0 : Ref sig .tc := ⟨.hbm, 185, rfl⟩
abbrev main_call3_v1 : Ref sig .tc := ⟨.hbm, 186, rfl⟩
abbrev main_v152 : Ref sig .tc := ⟨.hbm, 187, rfl⟩
abbrev main_v153 : Ref sig .tc := ⟨.hbm, 188, rfl⟩
abbrev main_cst_19 : Ref sig .tc := ⟨.hbm, 189, rfl⟩
abbrev main_v154 : Ref sig .tc := ⟨.hbm, 190, rfl⟩
abbrev main_v155 : Ref sig .tc := ⟨.hbm, 191, rfl⟩
abbrev main_cst_20 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_cst_21 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩

abbrev nD : Nat := 1
abbrev τ : Topo := Topo.v7x

variable {F : FTy → Type} [FloatOps F]

class Facts₀ : Prop where
  shapeCasts_S8x900x256_S7200x256 : S8x900x256.ShapeCasts S7200x256
  bcast_S_S7200x256 : S_.BroadcastsInDim S7200x256 (![] : Fin 0 → Fin S7200x256.rank)
  shapeCasts_S8x900x4_S7200x4 : S8x900x4.ShapeCasts S7200x4
  reducesTo_S2000x256_S2000_d1 : S2000x256.ReducesTo [1] S2000
  h_S_ : 0 < S_.numel
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x256_0_1 : S2000x1.BroadcastsInDim S2000x256 (![0, 1] : Fin 2 → Fin S2000x256.rank)
  bcast_S7200x4_S7200x1x4_0_2 : S7200x4.BroadcastsInDim S7200x1x4 (![0, 2] : Fin 2 → Fin S7200x1x4.rank)
  bcast_S2000x4_S1x2000x4_1_2 : S2000x4.BroadcastsInDim S1x2000x4 (![1, 2] : Fin 2 → Fin S1x2000x4.rank)
  bcast_S7200x1x4_S7200x2000x4_0_1_2 : S7200x1x4.BroadcastsInDim S7200x2000x4 (![0, 1, 2] : Fin 3 → Fin S7200x2000x4.rank)
  bcast_S1x2000x4_S7200x2000x4_0_1_2 : S1x2000x4.BroadcastsInDim S7200x2000x4 (![0, 1, 2] : Fin 3 → Fin S7200x2000x4.rank)
  reducesTo_S7200x2000x4_S7200x2000_d2 : S7200x2000x4.ReducesTo [2] S7200x2000
  slices_S7200x4_S7200x1_0_0 : S7200x4.Slices ![0, 0] S7200x1
  shapeCasts_S7200x1_S7200 : S7200x1.ShapeCasts S7200
  slices_S7200x4_S7200x1_0_1 : S7200x4.Slices ![0, 1] S7200x1
  slices_S7200x4_S7200x1_0_2 : S7200x4.Slices ![0, 2] S7200x1
  slices_S7200x4_S7200x1_0_3 : S7200x4.Slices ![0, 3] S7200x1
  bcast_S_S7200 : S_.BroadcastsInDim S7200 (![] : Fin 0 → Fin S7200.rank)
  bcast_S7200_S7200x1_0 : S7200.BroadcastsInDim S7200x1 (![0] : Fin 1 → Fin S7200x1.rank)
  concatenates_S7200x1_S7200x1_S7200x1_S7200x1_S7200x4_d1 : Shape.Concatenates [S7200x1, S7200x1, S7200x1, S7200x1] S7200x4 1
  slices_S2000x4_S2000x1_0_0 : S2000x4.Slices ![0, 0] S2000x1
  shapeCasts_S2000x1_S2000 : S2000x1.ShapeCasts S2000
  slices_S2000x4_S2000x1_0_1 : S2000x4.Slices ![0, 1] S2000x1
  slices_S2000x4_S2000x1_0_2 : S2000x4.Slices ![0, 2] S2000x1
  slices_S2000x4_S2000x1_0_3 : S2000x4.Slices ![0, 3] S2000x1
  bcast_S_S2000 : S_.BroadcastsInDim S2000 (![] : Fin 0 → Fin S2000.rank)
  concatenates_S2000x1_S2000x1_S2000x1_S2000x1_S2000x4_d1 : Shape.Concatenates [S2000x1, S2000x1, S2000x1, S2000x1] S2000x4 1
  slices_S7200x4_S7200x2_0_0 : S7200x4.Slices ![0, 0] S7200x2
  bcast_S7200x2_S7200x1x2_0_2 : S7200x2.BroadcastsInDim S7200x1x2 (![0, 2] : Fin 2 → Fin S7200x1x2.rank)
  slices_S2000x4_S2000x2_0_0 : S2000x4.Slices ![0, 0] S2000x2
  bcast_S2000x2_S1x2000x2_1_2 : S2000x2.BroadcastsInDim S1x2000x2 (![1, 2] : Fin 2 → Fin S1x2000x2.rank)
  bcast_S7200x1x2_S7200x2000x2_0_1_2 : S7200x1x2.BroadcastsInDim S7200x2000x2 (![0, 1, 2] : Fin 3 → Fin S7200x2000x2.rank)
  bcast_S1x2000x2_S7200x2000x2_0_1_2 : S1x2000x2.BroadcastsInDim S7200x2000x2 (![0, 1, 2] : Fin 3 → Fin S7200x2000x2.rank)
  slices_S7200x4_S7200x2_0_2 : S7200x4.Slices ![0, 2] S7200x2
  slices_S2000x4_S2000x2_0_2 : S2000x4.Slices ![0, 2] S2000x2
  bcast_S_S7200x2000x2 : S_.BroadcastsInDim S7200x2000x2 (![] : Fin 0 → Fin S7200x2000x2.rank)
  slices_S7200x2000x2_S7200x2000x1_0_0_0 : S7200x2000x2.Slices ![0, 0, 0] S7200x2000x1
  shapeCasts_S7200x2000x1_S7200x2000 : S7200x2000x1.ShapeCasts S7200x2000
  slices_S7200x2000x2_S7200x2000x1_0_0_1 : S7200x2000x2.Slices ![0, 0, 1] S7200x2000x1
  bcast_S2000_S1x2000_1 : S2000.BroadcastsInDim S1x2000 (![1] : Fin 1 → Fin S1x2000.rank)
  bcast_S7200x1_S7200x2000_0_1 : S7200x1.BroadcastsInDim S7200x2000 (![0, 1] : Fin 2 → Fin S7200x2000.rank)
  bcast_S1x2000_S7200x2000_0_1 : S1x2000.BroadcastsInDim S7200x2000 (![0, 1] : Fin 2 → Fin S7200x2000.rank)
  bcast_S_S7200x2000 : S_.BroadcastsInDim S7200x2000 (![] : Fin 0 → Fin S7200x2000.rank)
  shapeCasts_S7200x2000_S8x900x2000 : S7200x2000.ShapeCasts S8x900x2000
  dot_S7200x256_S2000x256_S7200x2000_1_1_0_0_n_n_wf : DotDims.WF S7200x256 S2000x256 S7200x2000 [1] [1] [0] [0] [] []

variable [Facts₀]

def dot_S7200x256_S2000x256_S7200x2000_1_1_0_0_n_n : DotDims S7200x256 S2000x256 S7200x2000 where
  lhsContracting := [1]
  rhsContracting := [1]
  lhsNonContracting := [0]
  rhsNonContracting := [0]
  lhsBatch := []
  rhsBatch := []
  wf := dot_S7200x256_S2000x256_S7200x2000_1_1_0_0_n_n_wf

class Facts : Prop extends Facts₀ where

variable [Facts]
-- ==== Proof.Spec.lean ====
/-
  The matching cost of one (query, target) pair, as one function over the extended reals.

  A query has a row of 256 logits and a box (cx, cy, w, h); a target has a row of 256 normalised label weights and a
  box. The cost is 5·L1(boxes) + 1·class + 2·giou, where
    class = −Σ_k clamp(sigmoid(logit_k)) · weight_k,
    L1    = Σ_c |b_c − g_c| (started from zero),
    giou  = −max(−1, iou − (hull − union)/(hull + ε)) on the corner boxes (c ∓ w/2),
  with iou = inter/(union + ε), union = area_b + area_g − inter, inter and hull the clipped overlap and the clipped
  enclosing rectangle. Every constant is kept as the binary value both programs print, so none is ever evaluated
  except the zero.  The cost matrix of 7200 queries against 2000 targets is this function entry by entry.
-/
import Idealize.ShloMosaic.PureOps.Ideal.Laws
import Idealize.ShloMosaic.Lib.ValueIdx

noncomputable section

open scoped BigOperators

namespace Cert.MatchCost

open Idealize.ShloMosaic Idealize.ShloMosaic.ValueIdx

/-- The constants, as binary values: ε = 1e-6 rounded, 1 − ε rounded, 1/2, 0, −1, 1, 5, 2. -/
abbrev cEps : EReal := Ideal.ofBits .f32 0x358637BD#32
abbrev cTop : EReal := Ideal.ofBits .f32 0x3F7FFFEF#32
abbrev cHalf : EReal := Ideal.ofBits .f32 0x3F000000#32
abbrev cZero : EReal := Ideal.ofBits .f32 0x00000000#32
abbrev cNegOne : EReal := Ideal.ofBits .f32 0xBF800000#32
abbrev cOne : EReal := Ideal.ofBits .f32 0x3F800000#32
abbrev cFive : EReal := Ideal.ofBits .f32 0x40A00000#32
abbrev cTwo : EReal := Ideal.ofBits .f32 0x40000000#32

/-- The class probability of a logit, clamped into [ε, 1 − ε]. -/
def prob (x : EReal) : EReal := min cTop (max cEps (Ideal.logistic x))

/-- The classification term: minus the inner product of the clamped probabilities with the label weights. -/
def clsCost (xr wr : Fin 256 → EReal) : EReal := -(∑ k : Fin 256, prob (xr k) * wr k)

/-- The absolute value on the extended reals. -/
def eabs (x : EReal) : EReal := max x (-x)

/-- The L1 distance of two boxes in centre form, summed from zero. -/
def l1Cost (b g : Fin 4 → EReal) : EReal := cZero + ∑ c : Fin 4, eabs (b c - g c)

/-- Lower and upper corner coordinate of a side with centre `c` and width `w`. -/
def lo (c w : EReal) : EReal := c - cHalf * w
def hi (c w : EReal) : EReal := c + cHalf * w

/-- The area of a corner box. -/
def boxArea (x1 y1 x2 y2 : EReal) : EReal := (x2 - x1) * (y2 - y1)

/-- Clipping at zero from below. -/
def clip0 (x : EReal) : EReal := max cZero x

/-- The area of the overlap of two corner boxes. -/
def overlap (px1 py1 px2 py2 tx1 ty1 tx2 ty2 : EReal) : EReal :=
  clip0 (min px2 tx2 - max px1 tx1) * clip0 (min py2 ty2 - max py1 ty1)

/-- The area of the smallest rectangle enclosing two corner boxes. -/
def hullArea (px1 py1 px2 py2 tx1 ty1 tx2 ty2 : EReal) : EReal :=
  clip0 (max px2 tx2 - min px1 tx1) * clip0 (max py2 ty2 - min py1 ty1)

/-- The union's area from the two areas and the overlap. -/
def unionArea (a1 a2 inter : EReal) : EReal := (a1 + a2) - inter

/-- The generalised IoU from the overlap, the union and the hull. -/
def giouOf (inter union hull : EReal) : EReal :=
  Ideal.div inter (union + cEps) - Ideal.div (hull - union) (hull + cEps)

/-- The generalised IoU of two corner boxes. -/
def giouCorners (px1 py1 px2 py2 tx1 ty1 tx2 ty2 : EReal) : EReal :=
  giouOf (overlap px1 py1 px2 py2 tx1 ty1 tx2 ty2)
    (unionArea (boxArea px1 py1 px2 py2) (boxArea tx1 ty1 tx2 ty2) (overlap px1 py1 px2 py2 tx1 ty1 tx2 ty2))
    (hullArea px1 py1 px2 py2 tx1 ty1 tx2 ty2)

/-- The GIoU term of two boxes in centre form: minus the GIoU of their corner boxes clamped at −1 from below. -/
def giouCost (b g : Fin 4 → EReal) : EReal :=
  -(max cNegOne (giouCorners (lo (b 0) (b 2)) (lo (b 1) (b 3)) (hi (b 0) (b 2)) (hi (b 1) (b 3))
      (lo (g 0) (g 2)) (lo (g 1) (g 3)) (hi (g 0) (g 2)) (hi (g 1) (g 3))))

/-- The matching cost of a query (logit row `xr`, box `b`) against a target (weight row `wr`, box `g`). -/
def cost (xr wr : Fin 256 → EReal) (b g : Fin 4 → EReal) : EReal :=
  (cFive * l1Cost b g + cOne * clsCost xr wr) + cTwo * giouCost b g

/-- The cost matrix: entry (n, q) is the cost of query n against target q. -/
def costMatrix (X : (⟨2, ![7200, 256]⟩ : Shape).Idx → EReal) (B : (⟨2, ![7200, 4]⟩ : Shape).Idx → EReal)
    (T : (⟨2, ![2000, 4]⟩ : Shape).Idx → EReal) (W : (⟨2, ![2000, 256]⟩ : Shape).Idx → EReal) :
    (⟨2, ![7200, 2000]⟩ : Shape).Idx → EReal :=
  fun i => cost (fun k => X (ix2 (i 0) k)) (fun k => W (ix2 (i 1) k)) (fun c => B (ix2 (i 0) c)) (fun c => T (ix2 (i 1) c))

theorem costMatrix_apply (X : (⟨2, ![7200, 256]⟩ : Shape).Idx → EReal) (B : (⟨2, ![7200, 4]⟩ : Shape).Idx → EReal)
    (T : (⟨2, ![2000, 4]⟩ : Shape).Idx → EReal) (W : (⟨2, ![2000, 256]⟩ : Shape).Idx → EReal) (n : Fin 7200) (q : Fin 2000) :
    costMatrix X B T W (ix2 n q)
      = cost (fun k => X (ix2 n k)) (fun k => W (ix2 q k)) (fun c => B (ix2 n c)) (fun c => T (ix2 q c)) := rfl

/-! ## The same terms in the other order of their commutative operations -/

/-- Clamping from below first and from above second, with the bound on the right. -/
theorem prob_of_right (x : EReal) : min (max (Ideal.logistic x) cEps) cTop = prob x := by
  rw [prob, min_comm, max_comm]

/-- Clipping at zero with the zero on the right. -/
theorem clip0_of_right (x : EReal) : max x cZero = clip0 x := max_comm _ _

/-- Subtracting from zero is negating. -/
theorem zero_sub_eq (x : EReal) : cZero - x = -x := by
  show Ideal.ofBits .f32 0x00000000#32 - x = -x
  rw [Ideal.ofBits_zero_f32, zero_sub]

/-- Four summands added one after the other onto zero are zero plus their sum. -/
theorem l1_of_steps (a : Fin 4 → EReal) : cZero + a 0 + a 1 + a 2 + a 3 = cZero + ∑ c : Fin 4, a c := by
  rw [Fin.sum_univ_four]
  simp only [add_assoc]

/-- Minus the clamp, written as zero minus the clamp with the bound on the right. -/
theorem neg_clamp_of_right (g : EReal) : cZero - max g cNegOne = -(max cNegOne g) := by
  rw [zero_sub_eq, max_comm]

end Cert.MatchCost

end
-- ==== Proof.LibPairVec.lean ====
/-
  Vectors and matrix columns of a kernel that works on a tile of (row, column) pairs, read by coordinates.

  A pairwise kernel takes column `c` of an [a, n] operand — as an [a, 1] column, or recast as a vector [a] —, and
  spreads a vector over the tile either down the rows ([a] → [a, 1] → [a, b]: entry (p, q) is the vector at p) or along
  the columns ([b] → [1, b] → [a, b]: entry (p, q) is the vector at q). Each lemma reads one such composite at an index
  given by its coordinates.
-/
import Idealize.ShloMosaic.Lib.ValueIdx
import Idealize.ShloMosaic.Lib.ValueLayout
import Idealize.ShloMosaic.Lib.Pipeline.Value

noncomputable section

namespace Cert.LibPairVec

open Idealize.ShloMosaic Idealize.ShloMosaic.ValueIdx

variable {α : Type}

/-- A column [a, 1] broadcast to [a, b] reads, at (p, q), the column at p. -/
theorem broadcastTo_col_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] recast as a column [a, 1] reads, at (i, u), the vector at i. -/
theorem shapeCast_vec_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] recast as a vector [a] reads, at i, the column at (i, 0). -/
theorem shapeCast_col_vec_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `c` of an [a, n] matrix, cut out as [a, 1] and recast as a vector: at i, the matrix at (i, c). -/
theorem column_vec_apply {a n : ℕ} (c : ℕ) (hc : c < n) (X : (⟨2, ![a, n]⟩ : Shape).Idx → α)
    (hs : (⟨2, ![a, n]⟩ : Shape).Slices ![0, c] ⟨2, ![a, 1]⟩) (h : (⟨2, ![a, 1]⟩ : Shape).ShapeCasts ⟨1, ![a]⟩) (i : Fin a) :
    shapeCast ⟨1, ![a]⟩ (extractStridedSlice ⟨2, ![a, 1]⟩ ![0, c] X hs) h (ix1 i) = X (ix2 i ⟨c, hc⟩) :=
  (shapeCast_col_vec_apply _ h i).trans (slice2_axis1_apply c X hs i (0 : Fin 1) ⟨c, hc⟩ rfl)

/-- Column `c` of an [a, n] matrix, cut out as [a, 1] and spread over [a, b]: at (p, q), the matrix at (p, c). -/
theorem column_spread_apply {a n b : ℕ} (c : ℕ) (hc : c < n) (X : (⟨2, ![a, n]⟩ : Shape).Idx → α)
    (hs : (⟨2, ![a, n]⟩ : Shape).Slices ![0, c] ⟨2, ![a, 1]⟩) (hb : (⟨2, ![a, 1]⟩ : Shape).Broadcasts ⟨2, ![a, b]⟩)
    (p : Fin a) (q : Fin b) :
    broadcastTo ⟨2, ![a, b]⟩ (extractStridedSlice ⟨2, ![a, 1]⟩ ![0, c] X hs) hb (ix2 p q) = X (ix2 p ⟨c, hc⟩) :=
  (broadcastTo_col_apply _ hb p q).trans (slice2_axis1_apply c X hs p (0 : Fin 1) ⟨c, hc⟩ rfl)

/-- A vector [a] spread down the rows of [a, b]: at (p, q), the vector at p. -/
theorem vec_down_apply {a b : ℕ} (v : (⟨1, ![a]⟩ : Shape).Idx → α) (h : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ v h) hb (ix2 p q) = v (ix1 p) :=
  (broadcastTo_col_apply _ hb p q).trans (shapeCast_vec_col_apply v h p 0)

/-- A vector [b] spread along the columns of [a, b]: at (p, q), the vector at q. -/
theorem vec_along_apply {a b : ℕ} (v : (⟨1, ![b]⟩ : Shape).Idx → α) (h : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v h) hb (ix2 p q) = v (ix1 q) :=
  (broadcastTo_1b_ab_apply _ hb p q).trans (shapeCast_a_1a_apply v h 0 q)

/-- Column `c` of a [b, n] matrix, cut out, recast as a vector [b] and spread along the columns of [a, b]: at (p, q),
    the matrix at (q, c). -/
theorem column_along_apply {a b n : ℕ} (c : ℕ) (hc : c < n) (X : (⟨2, ![b, n]⟩ : Shape).Idx → α)
    (hs : (⟨2, ![b, n]⟩ : Shape).Slices ![0, c] ⟨2, ![b, 1]⟩) (h : (⟨2, ![b, 1]⟩ : Shape).ShapeCasts ⟨1, ![b]⟩)
    (h' : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (shapeCast ⟨1, ![b]⟩ (extractStridedSlice ⟨2, ![b, 1]⟩ ![0, c] X hs) h) h') hb
      (ix2 p q) = X (ix2 q ⟨c, hc⟩) :=
  (vec_along_apply _ h' hb p q).trans (column_vec_apply c hc X hs h q)

end Cert.LibPairVec

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.KPay.lean ====
/-
  The kernel body's arithmetic at one entry of its tile.

  At a grid point the body holds 360 query rows (logits `x0`, boxes `x1`), all 2000 targets' boxes `x2` and the
  normalised label weights `x3` laid out [256, 2000] (weight k of target q at (k, q)). Entry (p, q) of the tile it
  stores is the matching cost of query row p against target q: the matrix product of the clamped probabilities with the
  weights, read at (p, q), is the inner product over the 256 classes; every box quantity is built from column vectors
  of the two box operands spread down the rows (queries) or along the columns (targets) of the tile.
-/
import proofs.«163413_j39384850104993_1_alg».proof.Proof.Gen.KernelIdeal.Skeleton
import proofs.«163413_j39384850104993_1_alg».proof.Proof.Spec
import proofs.«163413_j39384850104993_1_alg».proof.Proof.LibPairVec
import proofs.«163413_j39384850104993_1_alg».proof.Proof.LibMatmulNN

noncomputable section

open scoped BigOperators

namespace Cert.KernelIdeal.Pay

open Cert.KernelIdeal Cert.KernelIdeal.Gen Idealize.ShloMosaic Idealize.ShloMosaic.ValueIdx Cert.MatchCost Cert.LibPairVec

/-! ## Box coordinates of the queries: vectors over the 360 rows -/

section Queries
variable (v3 : FVec Ideal S360x4 .f32) (p : Fin 360)

theorem cx_apply : k0_pay7 v3 (ix1 p) = v3 (ix2 p 0) := by
  unfold k0_pay7; exact column_vec_apply 0 (by decide) v3 _ _ p
theorem cy_apply : k0_pay8 v3 (ix1 p) = v3 (ix2 p 1) := by
  unfold k0_pay8; exact column_vec_apply 1 (by decide) v3 _ _ p
theorem w_apply : k0_pay9 v3 (ix1 p) = v3 (ix2 p 2) := by
  unfold k0_pay9; exact column_vec_apply 2 (by decide) v3 _ _ p
theorem h_apply : k0_pay10 v3 (ix1 p) = v3 (ix2 p 3) := by
  unfold k0_pay10; exact column_vec_apply 3 (by decide) v3 _ _ p

theorem x1_apply : k0_pay11 v3 (ix1 p) = lo (v3 (ix2 p 0)) (v3 (ix2 p 2)) := by
  unfold k0_pay11
  show k0_pay7 v3 (ix1 p) - cHalf * k0_pay9 v3 (ix1 p) = _
  rw [cx_apply, w_apply]; rfl
theorem y1_apply : k0_pay12 v3 (ix1 p) = lo (v3 (ix2 p 1)) (v3 (ix2 p 3)) := by
  unfold k0_pay12
  show k0_pay8 v3 (ix1 p) - cHalf * k0_pay10 v3 (ix1 p) = _
  rw [cy_apply, h_apply]; rfl
theorem x2_apply : k0_pay13 v3 (ix1 p) = hi (v3 (ix2 p 0)) (v3 (ix2 p 2)) := by
  unfold k0_pay13
  show k0_pay7 v3 (ix1 p) + cHalf * k0_pay9 v3 (ix1 p) = _
  rw [cx_apply, w_apply]; rfl
theorem y2_apply : k0_pay14 v3 (ix1 p) = hi (v3 (ix2 p 1)) (v3 (ix2 p 3)) := by
  unfold k0_pay14
  show k0_pay8 v3 (ix1 p) + cHalf * k0_pay10 v3 (ix1 p) = _
  rw [cy_apply, h_apply]; rfl

/-- The area of a query's corner box. -/
theorem area_apply : k0_pay23 v3 (ix1 p)
    = boxArea (lo (v3 (ix2 p 0)) (v3 (ix2 p 2))) (lo (v3 (ix2 p 1)) (v3 (ix2 p 3)))
        (hi (v3 (ix2 p 0)) (v3 (ix2 p 2))) (hi (v3 (ix2 p 1)) (v3 (ix2 p 3))) := by
  unfold k0_pay23
  show (k0_pay13 v3 (ix1 p) - k0_pay11 v3 (ix1 p)) * (k0_pay14 v3 (ix1 p) - k0_pay12 v3 (ix1 p)) = _
  rw [x1_apply, y1_apply, x2_apply, y2_apply]; rfl

end Queries

/-! ## Box coordinates of the targets: vectors over the 2000 columns -/

section Targets
variable (v4 : Vec Ideal S2000x4 .f32) (q : Fin 2000)

theorem tcx_apply : k0_pay15 v4 (ix1 q) = v4 (ix2 q 0) := by
  unfold k0_pay15; exact column_vec_apply 0 (by decide) v4 _ _ q
theorem tcy_apply : k0_pay16 v4 (ix1 q) = v4 (ix2 q 1) := by
  unfold k0_pay16; exact column_vec_apply 1 (by decide) v4 _ _ q
theorem tw_apply : k0_pay17 v4 (ix1 q) = v4 (ix2 q 2) := by
  unfold k0_pay17; exact column_vec_apply 2 (by decide) v4 _ _ q
theorem th_apply : k0_pay18 v4 (ix1 q) = v4 (ix2 q 3) := by
  unfold k0_pay18; exact column_vec_apply 3 (by decide) v4 _ _ q

theorem tx1_apply : k0_pay19 v4 (ix1 q) = lo (v4 (ix2 q 0)) (v4 (ix2 q 2)) := by
  unfold k0_pay19
  show k0_pay15 v4 (ix1 q) - cHalf * k0_pay17 v4 (ix1 q) = _
  rw [tcx_apply, tw_apply]; rfl
theorem ty1_apply : k0_pay20 v4 (ix1 q) = lo (v4 (ix2 q 1)) (v4 (ix2 q 3)) := by
  unfold k0_pay20
  show k0_pay16 v4 (ix1 q) - cHalf * k0_pay18 v4 (ix1 q) = _
  rw [tcy_apply, th_apply]; rfl
theorem tx2_apply : k0_pay21 v4 (ix1 q) = hi (v4 (ix2 q 0)) (v4 (ix2 q 2)) := by
  unfold k0_pay21
  show k0_pay15 v4 (ix1 q) + cHalf * k0_pay17 v4 (ix1 q) = _
  rw [tcx_apply, tw_apply]; rfl
theorem ty2_apply : k0_pay22 v4 (ix1 q) = hi (v4 (ix2 q 1)) (v4 (ix2 q 3)) := by
  unfold k0_pay22
  show k0_pay16 v4 (ix1 q) + cHalf * k0_pay18 v4 (ix1 q) = _
  rw [tcy_apply, th_apply]; rfl

/-- The width of a target's corner box. -/
theorem twidth_apply : k0_pay24 v4 (ix1 q)
    = hi (v4 (ix2 q 0)) (v4 (ix2 q 2)) - lo (v4 (ix2 q 0)) (v4 (ix2 q 2)) := by
  unfold k0_pay24
  show k0_pay21 v4 (ix1 q) - k0_pay19 v4 (ix1 q) = _
  rw [tx1_apply, tx2_apply]

end Targets

/-! ## The tile: pairs (query row p, target column q) -/

section Tile
variable (v64 v67 v70 v73 v96 : FVec Ideal S360 .f32) (v84 v87 v90 v93 v97 : FVec Ideal S2000 .f32)
variable (p : Fin 360) (q : Fin 2000)

/-- The overlap of query p's and target q's corner boxes. -/
theorem overlap_apply : k0_pay25 v64 v67 v70 v73 v84 v87 v90 v93 (ix2 p q)
    = overlap (v64 (ix1 p)) (v67 (ix1 p)) (v70 (ix1 p)) (v73 (ix1 p)) (v84 (ix1 q)) (v87 (ix1 q)) (v90 (ix1 q)) (v93 (ix1 q)) := by
  unfold k0_pay25
  simp only [maximumf, minimumf, subf, mulf, broadcast, vec_down_apply, vec_along_apply]
  rw [overlap, ← clip0_of_right, ← clip0_of_right]
  rfl

/-- The union's area. -/
theorem union_apply : k0_pay26 v64 v67 v70 v73 v84 v87 v90 v93 v96 v97 (ix2 p q)
    = unionArea (v96 (ix1 p)) (v97 (ix1 q) * (v93 (ix1 q) - v87 (ix1 q)))
        (overlap (v64 (ix1 p)) (v67 (ix1 p)) (v70 (ix1 p)) (v73 (ix1 p)) (v84 (ix1 q)) (v87 (ix1 q)) (v90 (ix1 q)) (v93 (ix1 q))) := by
  unfold k0_pay26
  simp only [addf, subf, mulf, vec_down_apply, vec_along_apply, overlap_apply]
  rfl

/-- The intersection over union. -/
theorem iou_apply : k0_pay27 v64 v67 v70 v73 v84 v87 v90 v93 v96 v97 (ix2 p q)
    = Ideal.div (overlap (v64 (ix1 p)) (v67 (ix1 p)) (v70 (ix1 p)) (v73 (ix1 p)) (v84 (ix1 q)) (v87 (ix1 q)) (v90 (ix1 q)) (v93 (ix1 q)))
        (unionArea (v96 (ix1 p)) (v97 (ix1 q) * (v93 (ix1 q) - v87 (ix1 q)))
          (overlap (v64 (ix1 p)) (v67 (ix1 p)) (v70 (ix1 p)) (v73 (ix1 p)) (v84 (ix1 q)) (v87 (ix1 q)) (v90 (ix1 q)) (v93 (ix1 q))) + cEps) := by
  unfold k0_pay27
  simp only [addf, divf, broadcast, union_apply, overlap_apply]
  rfl

theorem hull_x1_apply : k0_pay28 v64 v84 (ix2 p q) = min (v64 (ix1 p)) (v84 (ix1 q)) := by
  unfold k0_pay28
  simp only [minimumf, vec_down_apply, vec_along_apply]
  rfl
theorem hull_y1_apply : k0_pay29 v67 v87 (ix2 p q) = min (v67 (ix1 p)) (v87 (ix1 q)) := by
  unfold k0_pay29
  simp only [minimumf, vec_down_apply, vec_along_apply]
  rfl
theorem hull_x2_apply : k0_pay30 v70 v90 (ix2 p q) = max (v70 (ix1 p)) (v90 (ix1 q)) := by
  unfold k0_pay30
  simp only [maximumf, vec_down_apply, vec_along_apply]
  rfl
theorem hull_y2a_apply : k0_pay31 v73 (ix2 p q) = v73 (ix1 p) := by
  unfold k0_pay31
  exact vec_down_apply v73 _ _ p q
theorem hull_y2b_apply : k0_pay32 v93 (ix2 p q) = v93 (ix1 q) := by
  unfold k0_pay32
  exact vec_along_apply v93 _ _ p q

end Tile

/-! ## The L1 term -/

section L1
variable (v2 : Vec Ideal S360x4 .f32) (v4 : Vec Ideal S2000x4 .f32) (p : Fin 360) (q : Fin 2000)

theorem boxes_id : k0_pay2 v2 = v2 := by
  unfold k0_pay2; exact shapeCast_self v2 _

/-- The first three summands, added one after the other onto zero. -/
theorem l1_three_apply : k0_pay4 v2 v4 (ix2 p q)
    = cZero + eabs (v2 (ix2 p 0) - v4 (ix2 q 0)) + eabs (v2 (ix2 p 1) - v4 (ix2 q 1)) + eabs (v2 (ix2 p 2) - v4 (ix2 q 2)) := by
  unfold k0_pay4
  simp only [boxes_id, addf, subf, absf, broadcast,
    column_spread_apply 0 (by decide : 0 < 4), column_spread_apply 1 (by decide : 1 < 4), column_spread_apply 2 (by decide : 2 < 4),
    column_along_apply 0 (by decide : 0 < 4), column_along_apply 1 (by decide : 1 < 4), column_along_apply 2 (by decide : 2 < 4)]
  rfl

theorem h_col_apply (u : Fin 1) : k0_pay5 v2 (ix2 p u) = v2 (ix2 p 3) := by
  unfold k0_pay5
  rw [boxes_id]
  have hu : u = 0 := Subsingleton.elim _ _
  subst hu
  exact slice2_axis1_apply 3 v2 _ p (0 : Fin 1) 3 rfl

/-- The fourth summand added. -/
theorem l1_step_apply (v44 : FVec Ideal S360x2000 .f32) (v45 : FVec Ideal S360x1 .f32) : k0_pay6 v4 v44 v45 (ix2 p q)
    = v44 (ix2 p q) + eabs (v45 (ix2 p 0) - v4 (ix2 q 3)) := by
  unfold k0_pay6
  simp only [addf, subf, absf, broadcastTo_col_apply, column_along_apply 3 (by decide : 3 < 4)]
  rfl

end L1

/-! ## The classification term -/

theorem cls_apply (v0 : Vec Ideal S360x256 .f32) (v5 : Vec Ideal S256x2000 .f32) (p : Fin 360) (q : Fin 2000) :
    k0_pay3 v0 v5 (ix2 p q) = clsCost (fun k => v0 (ix2 p k)) (fun k => v5 (ix2 k q)) := by
  unfold k0_pay3
  simp only [shapeCast_self]
  show cZero - matmul (F := Ideal) dot_S360x256_S256x2000_S360x2000_1_0_0_1_n_n none _ _ (constant S360x2000 .f32 0x00000000#32) (ix2 p q) = _
  rw [Cert.LibMatmulNN.matmul_nn_apply _ rfl rfl rfl rfl rfl rfl, zero_sub_eq, clsCost]
  refine congrArg Neg.neg (Finset.sum_congr rfl fun k _ => ?_)
  show min (max (Ideal.logistic (v0 (ix2 p k))) cEps) cTop * v5 (ix2 k q) = _
  rw [prob_of_right]

/-! ## The stored value -/

/-- The last part of the body is pointwise: at any index it combines its nine tile operands as follows. -/
theorem combine_apply (v16 v53 v132 v135 v140 v145 v150 v153 v154 : FVec Ideal S360x2000 .f32) (i : S360x2000.Idx) :
    k0_pay1 v16 v53 v132 v135 v140 v145 v150 v153 v154 i
      = (cFive * v53 i + cOne * v16 i)
        + cTwo * (cZero - max (v135 i - Ideal.div (max (v150 i - v140 i) cZero * max (max (v153 i) (v154 i) - v145 i) cZero - v132 i)
            (max (v150 i - v140 i) cZero * max (max (v153 i) (v154 i) - v145 i) cZero + cEps)) cNegOne) := rfl

end Cert.KernelIdeal.Pay

end
-- ==== Proof.KStored.lean ====
/-
  What the body stores, entry by entry.

  The body loads each operand's whole block and stores its whole tile once, so the tile it leaves is its arithmetic of
  the four blocks; entry (p, q) of that tile is the matching cost of the block's query row p against target q, the
  weights read transposed (weight k of target q sits at (k, q) of the fourth block).
-/
import proofs.«163413_j39384850104993_1_alg».proof.Proof.Gen.KernelIdeal.Frame
import proofs.«163413_j39384850104993_1_alg».proof.Proof.KPay
import Idealize.ShloMosaic.Lib.Pipeline.Value

set_option maxRecDepth 16384

noncomputable section

open scoped BigOperators

namespace Cert.KernelIdeal.Tile

open Cert.KernelIdeal Cert.KernelIdeal.Gen Idealize.ShloMosaic Idealize.ShloMosaic.ValueIdx Cert.MatchCost

theorem hz : (![0, 0] : Fin 2 → Nat) = fun _ => 0 := funext fun a => by fin_cases a <;> rfl

/-- Entry (p, q) of the stored tile is the cost of query row p against target q. -/
theorem stored_entry (x0 : Vec Ideal S360x256 .f32) (x1 : Vec Ideal S360x4 .f32) (x2 : Vec Ideal S2000x4 .f32)
    (x3 : Vec Ideal S256x2000 .f32) (p : Fin 360) (q : Fin 2000) :
    out0_4 x0 x1 x2 x3 (ix2 p q)
      = cost (fun k => x0 (ix2 p k)) (fun k => x3 (ix2 k q)) (fun c => x1 (ix2 p c)) (fun c => x2 (ix2 q c)) := by
  unfold out0_4
  rw [View.canon_unit_zero hz]
  simp only [View.ld_unit_zero (S := S360x256) hz, View.ld_unit_zero (S := S360x4) hz, View.ld_unit_zero (S := S2000x4) hz,
    View.ld_unit_zero (S := S256x2000) hz]
  rw [Pay.combine_apply]
  simp only [Pay.cls_apply, Pay.l1_step_apply, Pay.l1_three_apply, Pay.h_col_apply, Pay.union_apply, Pay.iou_apply,
    Pay.hull_x1_apply, Pay.hull_y1_apply, Pay.hull_x2_apply, Pay.hull_y2a_apply, Pay.hull_y2b_apply,
    Pay.x1_apply, Pay.y1_apply, Pay.x2_apply, Pay.y2_apply, Pay.tx1_apply, Pay.ty1_apply, Pay.tx2_apply, Pay.ty2_apply,
    Pay.area_apply, Pay.twidth_apply, Pay.boxes_id]
  rw [neg_clamp_of_right, clip0_of_right, clip0_of_right, l1_of_steps (fun c => eabs (x1 (ix2 p c) - x2 (ix2 q c)))]
  rfl

end Cert.KernelIdeal.Tile

end
-- ==== Proof.KEntry.lean ====
/-
  The kernel's result array.

  The region finds the logits and the boxes reshaped to 7200 rows, the targets' boxes as launched, and the label
  weights normalised and transposed to [256, 2000]. Grid point t works on query rows 360·t … 360·t + 359 and all 2000
  targets, and writes rows 360·t … 360·t + 359 of the [7200, 2000] result; the twenty blocks tile the result, so the
  result is the cost matrix of the reshaped operands. The program returns it reshaped to [8, 900, 2000].
-/
import proofs.«163413_j39384850104993_1_alg».proof.Proof.KStored
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.Tile

open Cert.KernelIdeal Cert.KernelIdeal.Gen Idealize.ShloMosaic Idealize.ShloMosaic.TcCoe Idealize.SL.Sem
open Idealize.ShloMosaic.ValueIdx Cert.MatchCost
open Idealize.ShloMosaic.Pipeline (Dat)

variable (m : (ℓ : Loc nD τ sig) → Buf (Elt Ideal) ℓ) (ρ : Dev nD → PrngReg)

/-! ## The operands as the region finds them -/

/-- The label weights divided by their row sums plus ε. -/
def normLabels (w : (⟨S2000x256, .f32⟩ : BufTy).Contents (Elt Ideal)) : (⟨S2000x256, .f32⟩ : BufTy).Contents (Elt Ideal) :=
  Host.divf (F := Ideal) w (broadcastInDim S2000x256 ![0, 1] bcast_S2000x1_S2000x256_0_1
    (addf (F := Ideal) (broadcastInDim S2000x1 ![0] bcast_S2000_S2000x1_0
        (Host.reduceAdd (F := Ideal) w (constant (F := Ideal) S_ .f32 0x00000000#32) reducesTo_S2000x256_S2000_d1 h_S_))
      (broadcastInDim S2000x1 ![] bcast_S_S2000x1 (constant (F := Ideal) S_ .f32 0x358637BD#32))))

theorem logits_eq (c : Dev nD) : (V m c main_v0 : S7200x256.Idx → EReal)
    = shapeCast S7200x256 (m ((c : Thread nD τ).loc main_arg0)) shapeCasts_S8x900x256_S7200x256 := by
  show StableHlo.after hostOps0 (fun b => m (c, b)) (Proc.devRef .tc main_v0) = _
  after_results; rfl

theorem boxes_eq (c : Dev nD) : (V m c main_v1 : S7200x4.Idx → EReal)
    = shapeCast S7200x4 (m ((c : Thread nD τ).loc main_arg1)) shapeCasts_S8x900x4_S7200x4 := by
  show StableHlo.after hostOps0 (fun b => m (c, b)) (Proc.devRef .tc main_v1) = _
  after_results; rfl

theorem weights_eq (c : Dev nD) : (V m c main_v8 : S256x2000.Idx → EReal)
    = transpose S256x2000 [1, 0] (normLabels (m ((c : Thread nD τ).loc main_arg3))) transposes_S2000x256_S256x2000_1_0 := by
  show StableHlo.after hostOps0 (fun b => m (c, b)) (Proc.devRef .tc main_v8) = _
  after_results; rfl

/-! ## The blocks -/

/-- The printed index maps over the grid: the query operands and the result move one block of 360 rows per point,
    the target operands stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The logits' block at point t is rows 360·t … of the reshaped logits. -/
theorem logits_blk (c : Dev nD) (t : Fin cfg0.N) (x : S360x256.Idx) (k : S7200x256.Idx)
    (hk0 : (k 0).val = 360 * t.val + (x 0).val) (hk1 : (k 1).val = (x 1).val) :
    (iblk m c 0 t : Vec Ideal S360x256 .f32) x = (V m c main_v0 : S7200x256.Idx → EReal) k := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 360 + 1 * (x 0).val = (k 0).val; rw [e0, hk0]; omega
  | ⟨1, _⟩ => show win0_0.index t 1 * 256 + 1 * (x 1).val = (k 1).val; rw [e1, hk1]; omega

theorem boxes_blk (c : Dev nD) (t : Fin cfg0.N) (x : S360x4.Idx) (k : S7200x4.Idx)
    (hk0 : (k 0).val = 360 * t.val + (x 0).val) (hk1 : (k 1).val = (x 1).val) :
    (iblk m c 1 t : Vec Ideal S360x4 .f32) x = (V m c main_v1 : S7200x4.Idx → EReal) k := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t 0 * 360 + 1 * (x 0).val = (k 0).val; rw [e0, hk0]; omega
  | ⟨1, _⟩ => show win0_1.index t 1 * 4 + 1 * (x 1).val = (k 1).val; rw [e1, hk1]; omega

theorem targets_blk (c : Dev nD) (t : Fin cfg0.N) (x : S2000x4.Idx) :
    (iblk m c 2 t : Vec Ideal S2000x4 .f32) x = (V m c main_arg2 : S2000x4.Idx → EReal) x := by
  obtain ⟨-, -, -, -, e0, e1, -⟩ := idx_facts t
  unfold iblk
  rw [View.read_apply]
  show V m c main_arg2 _ = V m c main_arg2 _
  congr 1
  funext a
  apply Fin.ext
  match a with
  | ⟨0, _⟩ => show win0_2.index t 0 * 2000 + 1 * (x 0).val = (x 0).val; rw [e0]; omega
  | ⟨1, _⟩ => show win0_2.index t 1 * 4 + 1 * (x 1).val = (x 1).val; rw [e1]; omega

theorem weights_blk (c : Dev nD) (t : Fin cfg0.N) (x : S256x2000.Idx) :
    (iblk m c 3 t : Vec Ideal S256x2000 .f32) x = (V m c main_v8 : S256x2000.Idx → EReal) x := by
  obtain ⟨-, -, -, -, -, -, e0, e1, -⟩ := idx_facts t
  unfold iblk
  rw [View.read_apply]
  show V m c main_v8 _ = V m c main_v8 _
  congr 1
  funext a
  apply Fin.ext
  match a with
  | ⟨0, _⟩ => show win0_3.index t 0 * 256 + 1 * (x 0).val = (x 0).val; rw [e0]; omega
  | ⟨1, _⟩ => show win0_3.index t 1 * 2000 + 1 * (x 1).val = (x 1).val; rw [e1]; omega

/-! ## The result array -/

theorem cost_congr {xr xr' wr wr' : Fin 256 → EReal} {b b' g g' : Fin 4 → EReal} (h1 : xr = xr') (h2 : wr = wr')
    (h3 : b = b') (h4 : g = g') : cost xr wr b g = cost xr' wr' b' g' := by
  subst h1 h2 h3 h4; rfl

/-- The cost matrix of the operands as the region finds them. -/
def result (c : Dev nD) : S7200x2000.Idx → EReal :=
  costMatrix (V m c main_v0) (V m c main_v1) (V m c main_arg2) (normLabels (m ((c : Thread nD τ).loc main_arg3)))

/-- What point t writes back is block t of the cost matrix. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  obtain ⟨-, -, -, -, -, -, -, -, e0, e1⟩ := idx_facts t
  show (out0_4 (iblk m c 0 t) (iblk m c 1 t) (iblk m c 2 t) (iblk m c 3 t) : S360x2000.Idx → EReal)
    = fun j : S360x2000.Idx => result m c (((cfg0.win 4).blk t).view.emb j)
  funext j
  obtain ⟨p, q, rfl⟩ : ∃ (p : Fin 360) (q : Fin 2000), j = ix2 p q := ⟨j 0, j 1, eq_ix2 j⟩
  have hN : t.val < 20 := by have h := t.isLt; have e : cfg0.N = 20 := N_0; omega
  have hp : p.val < 360 := p.isLt
  have hemb : ((cfg0.win 4).blk t).view.emb (ix2 p q)
      = ix2 (n0 := 7200) (n1 := 2000) ⟨360 * t.val + p.val, by omega⟩ q := by
    funext a
    apply Fin.ext
    match a with
    | ⟨0, _⟩ => show win0_4.index t 0 * 360 + 1 * p.val = 360 * t.val + p.val; rw [e0]; omega
    | ⟨1, _⟩ => show win0_4.index t 1 * 2000 + 1 * q.val = q.val; rw [e1]; omega
  rw [hemb]
  refine (stored_entry (iblk m c 0 t) (iblk m c 1 t) (iblk m c 2 t) (iblk m c 3 t) p q).trans ?_
  refine (cost_congr ?_ ?_ ?_ ?_).trans (costMatrix_apply (V m c main_v0) (V m c main_v1) (V m c main_arg2)
    (normLabels (m ((c : Thread nD τ).loc main_arg3))) ⟨360 * t.val + p.val, by omega⟩ q).symm
  · funext k
    exact logits_blk m c t (ix2 p k) (ix2 (n0 := 7200) ⟨360 * t.val + p.val, by omega⟩ k) rfl rfl
  · funext k
    rw [weights_blk, weights_eq]
    exact transpose_ix2_apply (a := 2000) (b := 256) _ _ k q
  · funext d
    exact boxes_blk m c t (ix2 p d) (ix2 (n0 := 7200) ⟨360 * t.val + p.val, by omega⟩ d) rfl rfl
  · funext d
    exact targets_blk m c t (ix2 q d)

/-- An index of the result is in point t's block iff its row is one of the block's 360 rows. -/
theorem mem_blk (t : Fin cfg0.N) (i : S7200x2000.Idx) :
    i ∈ ((cfg0.win 4).blk t).view.set ↔ ∀ a : Fin 2, win0_4.index t a * S360x2000.size a ≤ (i a).val
      ∧ (i a).val < win0_4.index t a * S360x2000.size a + S360x2000.size a := by
  show i ∈ ((View.whole main_v9).slice (win0_4.rect t)).set ↔ _
  rw [View.set_slice_whole, Rect.mem_set_unit]
  exact Iff.rfl

/-- The twenty blocks tile the result (row r lies in block r / 360), so the result array ends as the cost matrix. -/
theorem final (c : Dev nD) : (dats m 0 c).arrAt 4 cfg0.N = result m c :=
  (dats m 0 c).arrAt_eq_of_cover 4 (result m c) (fun t _ => flushed_eq m c t) fun i => by
    have hi0 : (i 0).val < 7200 := (i 0).isLt
    have hi1 : (i 1).val < 2000 := (i 1).isLt
    have ht : (i 0).val / 360 < cfg0.N := by rw [show cfg0.N = 20 from N_0]; omega
    obtain ⟨-, -, -, -, -, -, -, -, e0, e1⟩ := idx_facts ⟨(i 0).val / 360, ht⟩
    refine ⟨⟨(i 0).val / 360, ht⟩, flush0_4 _, ?_⟩
    rw [mem_blk]
    intro a
    match a with
    | ⟨0, _⟩ =>
      show win0_4.index ⟨(i 0).val / 360, ht⟩ 0 * 360 ≤ (i 0).val ∧ (i 0).val < win0_4.index ⟨(i 0).val / 360, ht⟩ 0 * 360 + 360
      rw [e0]; show (i 0).val / 360 * 360 ≤ (i 0).val ∧ (i 0).val < (i 0).val / 360 * 360 + 360; omega
    | ⟨1, _⟩ =>
      show win0_4.index ⟨(i 0).val / 360, ht⟩ 1 * 2000 ≤ (i 1).val ∧ (i 1).val < win0_4.index ⟨(i 0).val / 360, ht⟩ 1 * 2000 + 2000
      rw [e1]; omega

/-! ## The returned value -/

/-- The program returns the result array reshaped to [8, 900, 2000]. -/
theorem returned_eq (c : Dev nD) : Pipeline.afterTail₀ cfgs (dats m) 0 (V0 m) [hostOps1] c main_v10
    = shapeCast S8x900x2000 (result m c) shapeCasts_S7200x2000_S8x900x2000 := by
  unfold Pipeline.afterTail₀
  show StableHlo.after hostOps1 _ (Proc.devRef .tc main_v10) = _
  after_results
  have hA : Pipeline.withArrays (cfgs 0).spec c (V0 m c) (fun w => (dats m 0 c).arrAt w (cfgs 0).N) (Proc.devRef .tc main_v9)
      = result m c :=
    (Pipeline.withArrays_arr spec0 launch0.win.arr_inj c _ _ 4).trans (final m c)
  rw [hA]
  rfl

theorem result_eq (c : Dev nD) : result m c
    = costMatrix (shapeCast S7200x256 (m ((c : Thread nD τ).loc main_arg0)) shapeCasts_S8x900x256_S7200x256)
        (shapeCast S7200x4 (m ((c : Thread nD τ).loc main_arg1)) shapeCasts_S8x900x4_S7200x4)
        (m ((c : Thread nD τ).loc main_arg2)) (normLabels (m ((c : Thread nD τ).loc main_arg3))) := by
  unfold result
  rw [logits_eq, boxes_eq, V_main_arg2]

/-- Every weakly fair execution of the program ends with the cost matrix of its arguments, reshaped, as its result and
    with its arguments unchanged. -/
theorem run : θ_run defs (onTc (τ := τ) (main (F := Ideal))) ⟨m, fun _ => 0, ρ⟩ fun r => ∀ c : Dev nD,
      r.2.mem ((c.tc : Thread nD τ).loc main_v10) = shapeCast S8x900x2000 (result m c) shapeCasts_S7200x2000_S8x900x2000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (returned_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Tile

end
-- ==== Proof.LibTrailingSums.lean ====
/-
  Sums over the trailing axes of a small-rank array, read by coordinates at the exact (extended-real) values, on both
  sides of a kernel/host comparison, and the layout steps that put per-row scalars side by side as columns.

  * A kernel's lane sum of `[a, b, c]` over its last axis, read at `(p, r)`, is `∑ k, x (p, r, k)`; of `[a, b]` over its
    last axis, read at `p`, is `∑ r, x (p, r)`. Composed, they give the iterated sum `∑ r, ∑ k, x (p, r, k)`.
  * The host's single reduction of `[a, b, c]` over BOTH trailing axes, read at `p`, is the initial value plus the same
    iterated sum: the indices that drop to `p` are exactly the triples `(p, r, k)`.
  * A vector `[a]` recast as a column `[a, 1]` reads its entry `p` at `(p, 0)`; four columns `[a, 1]` joined along the
    second axis into `[a, 4]` read column `q` at `(p, q)`.
-/
import Idealize.ShloMosaic.PureOps.Ideal.Laws
import Idealize.ShloMosaic.Lib.ValueIdx
import Idealize.ShloMosaic.Lib.Pipeline.Value
import Idealize.ShloMosaic.Lib.IdealHost

noncomputable section

namespace Idealize.ShloMosaic.TrailingSums

open Idealize.ShloMosaic Idealize.ShloMosaic.ValueIdx

variable {φ : FTy}

/-! ## The kernel's lane sums -/

/-- Putting coordinate `k` back on the last axis of `(p, r)` gives `(p, r, k)`. -/
theorem lift_last3 {a b c : Nat} (h : (⟨3, ![a, b, c]⟩ : Shape).Reduces [2] ⟨2, ![a, b]⟩) (p : Fin a) (r : Fin b) (k : Fin c) :
    h.lift (ix2 p r) k = ix3 p r k := by
  funext d; apply Fin.ext
  match d with
  | ⟨0, _⟩ => rfl
  | ⟨1, _⟩ => rfl
  | ⟨2, _⟩ => rfl

/-- Putting coordinate `r` back on the last axis of `p` gives `(p, r)`. -/
theorem lift_last2 {a b : Nat} (h : (⟨2, ![a, b]⟩ : Shape).Reduces [1] ⟨1, ![a]⟩) (p : Fin a) (r : Fin b) :
    h.lift (ix1 p) r = ix2 p r := by
  funext d; apply Fin.ext
  match d with
  | ⟨0, _⟩ => rfl
  | ⟨1, _⟩ => rfl

/-- A lane sum of `[a, b, c]` over the last axis from the zero accumulator, at `(p, r)`: the sum of row `(p, r)`. -/
theorem sum_last3 {a b c : Nat} (x : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (r : Fin b) :
    multiReduction (F := Ideal) .add [2] ⟨2, ![a, b]⟩ x acc h hφ hacc (ix2 p r) = ∑ k : Fin c, x (ix3 p r k) :=
  (Ideal.multiReduction_add_single x acc h hφ hacc (ix2 p r)).trans
    (Finset.sum_congr rfl fun k _ => congrArg x (lift_last3 h p r k))

/-- A lane sum of `[a, b]` over the last axis from the zero accumulator, at `p`: the sum of row `p`. -/
theorem sum_last2 {a b : Nat} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction (F := Ideal) .add [1] ⟨1, ![a]⟩ x acc h hφ hacc (ix1 p) = ∑ r : Fin b, x (ix2 p r) :=
  (Ideal.multiReduction_add_single x acc h hφ hacc (ix1 p)).trans
    (Finset.sum_congr rfl fun r _ => congrArg x (lift_last2 h p r))

/-! ## The host's sum over both trailing axes -/

/-- Dropping the two trailing coordinates of `(p, r, k)` leaves `p`. -/
theorem drop_trailing2 {a b c : Nat} (h : (⟨3, ![a, b, c]⟩ : Shape).ReducesTo [1, 2] ⟨1, ![a]⟩)
    (i : (⟨3, ![a, b, c]⟩ : Shape).Idx) : ((h.drop i) 0).val = (i 0).val :=
  rfl

/-- The host's reduction of `[a, b, c]` over axes 1 and 2, read at `p`: the initial value plus `∑ r, ∑ k, x (p, r, k)`.
    The indices that drop to `p` correspond one to one to the pairs `(r, k)`. -/
theorem hostSum_trailing2 {a b c : Nat} (h : (⟨3, ![a, b, c]⟩ : Shape).ReducesTo [1, 2] ⟨1, ![a]⟩)
    (x : (⟨3, ![a, b, c]⟩ : Shape).Idx → EReal) (init : EReal) (p : Fin a) :
    Ideal.hostReduceAdd h x init (ix1 p) = init + ∑ r : Fin b, ∑ k : Fin c, x (ix3 p r k) := by
  unfold Ideal.hostReduceAdd
  congr 1
  rw [← Fintype.sum_prod_type' (f := fun (r : Fin b) (k : Fin c) => x (ix3 p r k))]
  have h0 : ∀ i : (⟨3, ![a, b, c]⟩ : Shape).Idx, h.drop i = ix1 p → ix3 p (i 1) (i 2) = i := by
    intro i hi
    have e : (i 0).val = p.val := (drop_trailing2 h i).symm.trans (congrArg (fun j => (j 0).val) hi)
    funext d; apply Fin.ext
    match d with
    | ⟨0, _⟩ => exact e.symm
    | ⟨1, _⟩ => rfl
    | ⟨2, _⟩ => rfl
  refine Finset.sum_nbij' (fun i => ((i 1, i 2) : Fin b × Fin c)) (fun rk => ix3 p rk.1 rk.2) ?_ ?_ ?_ ?_ ?_
  · intro i _; exact Finset.mem_univ _
  · intro rk _
    refine Finset.mem_filter.2 ⟨Finset.mem_univ _, ?_⟩
    funext d; apply Fin.ext
    match d with
    | ⟨0, _⟩ => exact drop_trailing2 h (ix3 p rk.1 rk.2)
  · intro i hi; exact h0 i (Finset.mem_filter.1 hi).2
  · intro rk _; rfl
  · intro i hi; exact congrArg x (h0 i (Finset.mem_filter.1 hi).2).symm

/-! ## Scalars per row laid side by side -/

/-- A vector `[a]` recast as a column `[a, 1]`, read at `(p, 0)`: entry `p`. -/
theorem col_of_vec {α : Type} {a : Nat} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) :=
  shapeCast_apply v h (ix2 p z) (ix1 p) (by
    rw [Shape.rowMajor_val_one, Shape.rowMajor_val_two]
    show p.val = p.val * 1 + z.val
    have := z.isLt; omega)

/-- Four columns `[a, 1]` joined along the second axis into `[a, 4]`, read at `(p, q)`: column `q` at `(p, 0)`. -/
theorem cols4 {α : Type} {a : Nat} (f : Fin 4 → ((⟨2, ![a, 1]⟩ : Shape).Idx → α))
    (h : Shape.Concatenates (([⟨⟨2, ![a, 1]⟩, f 0⟩, ⟨⟨2, ![a, 1]⟩, f 1⟩, ⟨⟨2, ![a, 1]⟩, f 2⟩, ⟨⟨2, ![a, 1]⟩, f 3⟩] :
      List ((s : Shape) × (s.Idx → α))).map (·.1)) ⟨2, ![a, 4]⟩ 1) (p : Fin a) (q : Fin 4) :
    concatenate ⟨2, ![a, 4]⟩ 1 [⟨⟨2, ![a, 1]⟩, f 0⟩, ⟨⟨2, ![a, 1]⟩, f 1⟩, ⟨⟨2, ![a, 1]⟩, f 2⟩, ⟨⟨2, ![a, 1]⟩, f 3⟩] h (ix2 p q)
      = f q (ix2 p 0) :=
  concatenate_ofFn_unit_apply (t := ⟨2, ![a, 4]⟩) (s₁ := ⟨2, ![a, 1]⟩) 1 f h rfl rfl (ix2 p q) q rfl (ix2 p 0)
    (fun b hb => by
      match b with
      | ⟨0, _⟩ => rfl
      | ⟨1, _⟩ => exact absurd rfl hb)

end Idealize.ShloMosaic.TrailingSums

end
-- ==== Proof.RefCls.lean ====
/-
  The reference's clamped class probability, its classification term and its L1 term, read entry by entry.
-/
import proofs.«163413_j39384850104993_1_alg».proof.Proof.Gen.ReferenceIdeal.Read
import proofs.«163413_j39384850104993_1_alg».proof.Proof.Spec
import proofs.«163413_j39384850104993_1_alg».proof.Proof.LibTrailingSums

noncomputable section

open scoped BigOperators

namespace Cert.RefCost

open Cert.ReferenceIdeal Cert.ReferenceIdeal.Read Idealize.ShloMosaic Idealize.ShloMosaic.ValueIdx Cert.MatchCost

/-- The binary word of one is one. -/
theorem one_word : Ideal.ofBits .f32 0x3F800000#32 = 1 := by
  simp [Ideal.ofBits, Ideal.ieee, -EReal.coe_mul]; norm_num

/-- The clamped sigmoid of the logits: min(1 − ε, max(ε, 1/(1 + exp(−x)))). -/
theorem v7_at (x0 : (⟨S8x900x256, .f32⟩ : BufTy).Contents (Elt Ideal)) (i : S7200x256.Idx) :
    val_main_v7 (F := Ideal) x0 i = prob (val_main_v0 (F := Ideal) x0 i) := by
  rw [val_main_v7_apply, val_main_call0_v4_apply, val_main_call0_v3_apply, val_main_cst_2_apply,
    val_main_call0_v2_apply, val_main_call0_v1_apply, val_main_call0_v0_apply, val_main_cst_1_apply,
    val_main_v6_apply, val_main_v5_apply, val_main_cst_0_apply, val_main_v4_apply, val_main_v3_apply,
    val_main_cst_apply, val_main_v2_apply, val_main_v1_apply]
  simp only [Ideal.ofBits_def, Ideal.addf_def, Ideal.hostDivf_def, Ideal.hostNegf_def, Ideal.negf_def,
    Ideal.hostUnary_exp_def, Ideal.maximumf_def, Ideal.minimumf_def, one_word]
  rfl

/-- The classification term: minus the inner product of row n of the probabilities with row q of the weights. -/
theorem v16_at (x0 : (⟨S8x900x256, .f32⟩ : BufTy).Contents (Elt Ideal)) (x3 : (⟨S2000x256, .f32⟩ : BufTy).Contents (Elt Ideal)) (n : Fin 7200) (q : Fin 2000) :
    val_main_v16 (F := Ideal) x0 x3 (ix2 n q)
      = clsCost (fun k => val_main_v0 (F := Ideal) x0 (ix2 n k)) (fun k => val_main_v14 (F := Ideal) x3 (ix2 q k)) := by
  rw [val_main_v16_apply, val_main_v15_apply]
  have hl : ∀ k : Fin 256, lidx_main_v15 (ix2 n q) k = ix2 n k := fun k =>
    funext fun a => Fin.ext (by match a with | ⟨0, _⟩ => rfl | ⟨1, _⟩ => rfl)
  have hr : ∀ k : Fin 256, ridx_main_v15 (ix2 n q) k = ix2 q k := fun k =>
    funext fun a => Fin.ext (by match a with | ⟨0, _⟩ => rfl | ⟨1, _⟩ => rfl)
  simp only [hl, hr, v7_at]
  rfl

/-- One summand of the L1 term: |b_c − g_c|. -/
theorem v22_at (x1 : (⟨S8x900x4, .f32⟩ : BufTy).Contents (Elt Ideal)) (x2 : (⟨S2000x4, .f32⟩ : BufTy).Contents (Elt Ideal)) (n : Fin 7200) (q : Fin 2000) (c : Fin 4) :
    val_main_v22 (F := Ideal) x1 x2 (ix3 n q c)
      = eabs (val_main_v8 (F := Ideal) x1 (ix2 n c) - x2 (ix2 q c)) := by
  rw [val_main_v22_apply, val_main_v21_apply, val_main_v19_apply, val_main_v17_apply, val_main_v20_apply,
    val_main_v18_apply]
  have e1 : idx_main_v17 (idx_main_v19 (ix3 n q c)) = ix2 n c :=
    funext fun a => Fin.ext (by match a with | ⟨0, _⟩ => rfl | ⟨1, _⟩ => rfl)
  have e2 : idx_main_v18 (idx_main_v20 (ix3 n q c)) = ix2 q c :=
    funext fun a => Fin.ext (by match a with | ⟨0, _⟩ => rfl | ⟨1, _⟩ => rfl)
  rw [e1, e2]
  rfl

/-- The L1 term: zero plus the four summands. -/
theorem v23_at (x1 : (⟨S8x900x4, .f32⟩ : BufTy).Contents (Elt Ideal)) (x2 : (⟨S2000x4, .f32⟩ : BufTy).Contents (Elt Ideal)) (n : Fin 7200) (q : Fin 2000) :
    val_main_v23 (F := Ideal) x1 x2 (ix2 n q)
      = l1Cost (fun c => val_main_v8 (F := Ideal) x1 (ix2 n c)) (fun c => x2 (ix2 q c)) := by
  rw [val_main_v23_apply, val_main_cst_5_apply]
  have h : ∀ k : Fin 4, idx_main_v23 (ix2 n q) k = ix3 n q k := fun k =>
    funext fun a => Fin.ext (by match a with | ⟨0, _⟩ => rfl | ⟨1, _⟩ => rfl | ⟨2, _⟩ => rfl)
  simp only [h, v22_at]
  rfl

end Cert.RefCost

end
-- ==== Proof.RefBoxes.lean ====
/-
  The reference's corner boxes: the four corner coordinates of every query box and of every target box
  (centre ∓ half the width), as the columns of the two joined arrays.
-/
import proofs.«163413_j39384850104993_1_alg».proof.Proof.Gen.ReferenceIdeal.Read
import proofs.«163413_j39384850104993_1_alg».proof.Proof.Spec
import proofs.«163413_j39384850104993_1_alg».proof.Proof.LibTrailingSums

noncomputable section

open scoped BigOperators

namespace Cert.RefCost

open Cert.ReferenceIdeal Cert.ReferenceIdeal.Read Idealize.ShloMosaic Idealize.ShloMosaic.ValueIdx Cert.MatchCost

/-- Column 0 of the query boxes, through its slice and its reshape. -/
theorem v25_at (x1 : (⟨S8x900x4, .f32⟩ : BufTy).Contents (Elt Ideal)) (n : Fin 7200) :
    val_main_v25 (F := Ideal) x1 (ix1 n) = val_main_v8 (F := Ideal) x1 (ix2 n 0) := by
  rw [val_main_v25_apply, val_main_v24_apply]
  exact congrArg (val_main_v8 (F := Ideal) x1) (funext fun a => Fin.ext (by match a with | ⟨0, _⟩ => exact Nat.div_one _ | ⟨1, _⟩ => rfl))

/-- Column 1 of the query boxes, through its slice and its reshape. -/
theorem v27_at (x1 : (⟨S8x900x4, .f32⟩ : BufTy).Contents (Elt Ideal)) (n : Fin 7200) :
    val_main_v27 (F := Ideal) x1 (ix1 n) = val_main_v8 (F := Ideal) x1 (ix2 n 1) := by
  rw [val_main_v27_apply, val_main_v26_apply]
  exact congrArg (val_main_v8 (F := Ideal) x1) (funext fun a => Fin.ext (by match a with | ⟨0, _⟩ => exact Nat.div_one _ | ⟨1, _⟩ => rfl))

/-- Column 2 of the query boxes, through its slice and its reshape. -/
theorem v29_at (x1 : (⟨S8x900x4, .f32⟩ : BufTy).Contents (Elt Ideal)) (n : Fin 7200) :
    val_main_v29 (F := Ideal) x1 (ix1 n) = val_main_v8 (F := Ideal) x1 (ix2 n 2) := by
  rw [val_main_v29_apply, val_main_v28_apply]
  exact congrArg (val_main_v8 (F := Ideal) x1) (funext fun a => Fin.ext (by match a with | ⟨0, _⟩ => exact Nat.div_one _ | ⟨1, _⟩ => rfl))

/-- Column 3 of the query boxes, through its slice and its reshape. -/
theorem v31_at (x1 : (⟨S8x900x4, .f32⟩ : BufTy).Contents (Elt Ideal)) (n : Fin 7200) :
    val_main_v31 (F := Ideal) x1 (ix1 n) = val_main_v8 (F := Ideal) x1 (ix2 n 3) := by
  rw [val_main_v31_apply, val_main_v30_apply]
  exact congrArg (val_main_v8 (F := Ideal) x1) (funext fun a => Fin.ext (by match a with | ⟨0, _⟩ => exact Nat.div_one _ | ⟨1, _⟩ => rfl))

/-- Column 0 of the target boxes, through its slice and its reshape. -/
theorem v50_at (x2 : (⟨S2000x4, .f32⟩ : BufTy).Contents (Elt Ideal)) (q : Fin 2000) :
    val_main_v50 (F := Ideal) x2 (ix1 q) = x2 (ix2 q 0) := by
  rw [val_main_v50_apply, val_main_v49_apply]
  exact congrArg x2 (funext fun a => Fin.ext (by match a with | ⟨0, _⟩ => exact Nat.div_one _ | ⟨1, _⟩ => rfl))

/-- Column 1 of the target boxes, through its slice and its reshape. -/
theorem v52_at (x2 : (⟨S2000x4, .f32⟩ : BufTy).Contents (Elt Ideal)) (q : Fin 2000) :
    val_main_v52 (F := Ideal) x2 (ix1 q) = x2 (ix2 q 1) := by
  rw [val_main_v52_apply, val_main_v51_apply]
  exact congrArg x2 (funext fun a => Fin.ext (by match a with | ⟨0, _⟩ => exact Nat.div_one _ | ⟨1, _⟩ => rfl))

/-- Column 2 of the target boxes, through its slice and its reshape. -/
theorem v54_at (x2 : (⟨S2000x4, .f32⟩ : BufTy).Contents (Elt Ideal)) (q : Fin 2000) :
    val_main_v54 (F := Ideal) x2 (ix1 q) = x2 (ix2 q 2) := by
  rw [val_main_v54_apply, val_main_v53_apply]
  exact congrArg x2 (funext fun a => Fin.ext (by match a with | ⟨0, _⟩ => exact Nat.div_one _ | ⟨1, _⟩ => rfl))

/-- Column 3 of the target boxes, through its slice and its reshape. -/
theorem v56_at (x2 : (⟨S2000x4, .f32⟩ : BufTy).Contents (Elt Ideal)) (q : Fin 2000) :
    val_main_v56 (F := Ideal) x2 (ix1 q) = x2 (ix2 q 3) := by
  rw [val_main_v56_apply, val_main_v55_apply]
  exact congrArg x2 (funext fun a => Fin.ext (by match a with | ⟨0, _⟩ => exact Nat.div_one _ | ⟨1, _⟩ => rfl))

/-- A corner coordinate of query n: the centre minus half the width. -/
theorem v34_at (x1 : (⟨S8x900x4, .f32⟩ : BufTy).Contents (Elt Ideal)) (n : Fin 7200) :
    val_main_v34 (F := Ideal) x1 (ix1 n) = lo (val_main_v8 (F := Ideal) x1 (ix2 n 0)) (val_main_v8 (F := Ideal) x1 (ix2 n 2)) := by
  rw [val_main_v34_apply, val_main_v33_apply, val_main_v32_apply, val_main_cst_6_apply, v25_at, v29_at]
  rfl

/-- A corner coordinate of query n: the centre minus half the width. -/
theorem v37_at (x1 : (⟨S8x900x4, .f32⟩ : BufTy).Contents (Elt Ideal)) (n : Fin 7200) :
    val_main_v37 (F := Ideal) x1 (ix1 n) = lo (val_main_v8 (F := Ideal) x1 (ix2 n 1)) (val_main_v8 (F := Ideal) x1 (ix2 n 3)) := by
  rw [val_main_v37_apply, val_main_v36_apply, val_main_v35_apply, val_main_cst_7_apply, v27_at, v31_at]
  rfl

/-- A corner coordinate of query n: the centre plus half the width. -/
theorem v40_at (x1 : (⟨S8x900x4, .f32⟩ : BufTy).Contents (Elt Ideal)) (n : Fin 7200) :
    val_main_v40 (F := Ideal) x1 (ix1 n) = hi (val_main_v8 (F := Ideal) x1 (ix2 n 0)) (val_main_v8 (F := Ideal) x1 (ix2 n 2)) := by
  rw [val_main_v40_apply, val_main_v39_apply, val_main_v38_apply, val_main_cst_8_apply, v25_at, v29_at]
  rfl

/-- A corner coordinate of query n: the centre plus half the width. -/
theorem v43_at (x1 : (⟨S8x900x4, .f32⟩ : BufTy).Contents (Elt Ideal)) (n : Fin 7200) :
    val_main_v43 (F := Ideal) x1 (ix1 n) = hi (val_main_v8 (F := Ideal) x1 (ix2 n 1)) (val_main_v8 (F := Ideal) x1 (ix2 n 3)) := by
  rw [val_main_v43_apply, val_main_v42_apply, val_main_v41_apply, val_main_cst_9_apply, v27_at, v31_at]
  rfl

/-- A corner coordinate of target q: the centre minus half the width. -/
theorem v59_at (x2 : (⟨S2000x4, .f32⟩ : BufTy).Contents (Elt Ideal)) (q : Fin 2000) :
    val_main_v59 (F := Ideal) x2 (ix1 q) = lo (x2 (ix2 q 0)) (x2 (ix2 q 2)) := by
  rw [val_main_v59_apply, val_main_v58_apply, val_main_v57_apply, val_main_cst_10_apply, v50_at, v54_at]
  rfl

/-- A corner coordinate of target q: the centre minus half the width. -/
theorem v62_at (x2 : (⟨S2000x4, .f32⟩ : BufTy).Contents (Elt Ideal)) (q : Fin 2000) :
    val_main_v62 (F := Ideal) x2 (ix1 q) = lo (x2 (ix2 q 1)) (x2 (ix2 q 3)) := by
  rw [val_main_v62_apply, val_main_v61_apply, val_main_v60_apply, val_main_cst_11_apply, v52_at, v56_at]
  rfl

/-- A corner coordinate of target q: the centre plus half the width. -/
theorem v65_at (x2 : (⟨S2000x4, .f32⟩ : BufTy).Contents (Elt Ideal)) (q : Fin 2000) :
    val_main_v65 (F := Ideal) x2 (ix1 q) = hi (x2 (ix2 q 0)) (x2 (ix2 q 2)) := by
  rw [val_main_v65_apply, val_main_v64_apply, val_main_v63_apply, val_main_cst_12_apply, v50_at, v54_at]
  rfl

/-- A corner coordinate of target q: the centre plus half the width. -/
theorem v68_at (x2 : (⟨S2000x4, .f32⟩ : BufTy).Contents (Elt Ideal)) (q : Fin 2000) :
    val_main_v68 (F := Ideal) x2 (ix1 q) = hi (x2 (ix2 q 1)) (x2 (ix2 q 3)) := by
  rw [val_main_v68_apply, val_main_v67_apply, val_main_v66_apply, val_main_cst_13_apply, v52_at, v56_at]
  rfl

/-- The query corner boxes: column c of the join is the c-th of the four columns. -/
theorem v48_col (x1 : (⟨S8x900x4, .f32⟩ : BufTy).Contents (Elt Ideal)) (n : Fin 7200) (c : Fin 4) :
    val_main_v48 (F := Ideal) x1 (ix2 n c)
      = (![val_main_v44 (F := Ideal) x1, val_main_v45 (F := Ideal) x1, val_main_v46 (F := Ideal) x1,
          val_main_v47 (F := Ideal) x1] c) (ix2 n 0) := by
  unfold val_main_v48
  exact TrailingSums.cols4 ![val_main_v44 (F := Ideal) x1, val_main_v45 (F := Ideal) x1, val_main_v46 (F := Ideal) x1,
    val_main_v47 (F := Ideal) x1] _ n c

/-- The target corner boxes: column c of the join is the c-th of the four columns. -/
theorem v73_col (x2 : (⟨S2000x4, .f32⟩ : BufTy).Contents (Elt Ideal)) (q : Fin 2000) (c : Fin 4) :
    val_main_v73 (F := Ideal) x2 (ix2 q c)
      = (![val_main_v69 (F := Ideal) x2, val_main_v70 (F := Ideal) x2, val_main_v71 (F := Ideal) x2,
          val_main_v72 (F := Ideal) x2] c) (ix2 q 0) := by
  unfold val_main_v73
  exact TrailingSums.cols4 ![val_main_v69 (F := Ideal) x2, val_main_v70 (F := Ideal) x2, val_main_v71 (F := Ideal) x2,
    val_main_v72 (F := Ideal) x2] _ q c

/-- Corner coordinate 0 of query n. -/
theorem v48_0 (x1 : (⟨S8x900x4, .f32⟩ : BufTy).Contents (Elt Ideal)) (n : Fin 7200) :
    val_main_v48 (F := Ideal) x1 (ix2 n 0) = lo (val_main_v8 (F := Ideal) x1 (ix2 n 0)) (val_main_v8 (F := Ideal) x1 (ix2 n 2)) := by
  refine (v48_col x1 n 0).trans ?_
  show val_main_v44 (F := Ideal) x1 (ix2 n 0) = _
  rw [val_main_v44_apply]
  exact (congrArg (val_main_v34 (F := Ideal) x1) (funext fun a => Fin.ext (by match a with | ⟨0, _⟩ => rfl))).trans
    (v34_at x1 n)

/-- Corner coordinate 1 of query n. -/
theorem v48_1 (x1 : (⟨S8x900x4, .f32⟩ : BufTy).Contents (Elt Ideal)) (n : Fin 7200) :
    val_main_v48 (F := Ideal) x1 (ix2 n 1) = lo (val_main_v8 (F := Ideal) x1 (ix2 n 1)) (val_main_v8 (F := Ideal) x1 (ix2 n 3)) := by
  refine (v48_col x1 n 1).trans ?_
  show val_main_v45 (F := Ideal) x1 (ix2 n 0) = _
  rw [val_main_v45_apply]
  exact (congrArg (val_main_v37 (F := Ideal) x1) (funext fun a => Fin.ext (by match a with | ⟨0, _⟩ => rfl))).trans
    (v37_at x1 n)

/-- Corner coordinate 2 of query n. -/
theorem v48_2 (x1 : (⟨S8x900x4, .f32⟩ : BufTy).Contents (Elt Ideal)) (n : Fin 7200) :
    val_main_v48 (F := Ideal) x1 (ix2 n 2) = hi (val_main_v8 (F := Ideal) x1 (ix2 n 0)) (val_main_v8 (F := Ideal) x1 (ix2 n 2)) := by
  refine (v48_col x1 n 2).trans ?_
  show val_main_v46 (F := Ideal) x1 (ix2 n 0) = _
  rw [val_main_v46_apply]
  exact (congrArg (val_main_v40 (F := Ideal) x1) (funext fun a => Fin.ext (by match a with | ⟨0, _⟩ => rfl))).trans
    (v40_at x1 n)

/-- Corner coordinate 3 of query n. -/
theorem v48_3 (x1 : (⟨S8x900x4, .f32⟩ : BufTy).Contents (Elt Ideal)) (n : Fin 7200) :
    val_main_v48 (F := Ideal) x1 (ix2 n 3) = hi (val_main_v8 (F := Ideal) x1 (ix2 n 1)) (val_main_v8 (F := Ideal) x1 (ix2 n 3)) := by
  refine (v48_col x1 n 3).trans ?_
  show val_main_v47 (F := Ideal) x1 (ix2 n 0) = _
  rw [val_main_v47_apply]
  exact (congrArg (val_main_v43 (F := Ideal) x1) (funext fun a => Fin.ext (by match a with | ⟨0, _⟩ => rfl))).trans
    (v43_at x1 n)

/-- Corner coordinate 0 of target q. -/
theorem v73_0 (x2 : (⟨S2000x4, .f32⟩ : BufTy).Contents (Elt Ideal)) (q : Fin 2000) :
    val_main_v73 (F := Ideal) x2 (ix2 q 0) = lo (x2 (ix2 q 0)) (x2 (ix2 q 2)) := by
  refine (v73_col x2 q 0).trans ?_
  show val_main_v69 (F := Ideal) x2 (ix2 q 0) = _
  rw [val_main_v69_apply]
  exact (congrArg (val_main_v59 (F := Ideal) x2) (funext fun a => Fin.ext (by match a with | ⟨0, _⟩ => rfl))).trans
    (v59_at x2 q)

/-- Corner coordinate 1 of target q. -/
theorem v73_1 (x2 : (⟨S2000x4, .f32⟩ : BufTy).Contents (Elt Ideal)) (q : Fin 2000) :
    val_main_v73 (F := Ideal) x2 (ix2 q 1) = lo (x2 (ix2 q 1)) (x2 (ix2 q 3)) := by
  refine (v73_col x2 q 1).trans ?_
  show val_main_v70 (F := Ideal) x2 (ix2 q 0) = _
  rw [val_main_v70_apply]
  exact (congrArg (val_main_v62 (F := Ideal) x2) (funext fun a => Fin.ext (by match a with | ⟨0, _⟩ => rfl))).trans
    (v62_at x2 q)

/-- Corner coordinate 2 of target q. -/
theorem v73_2 (x2 : (⟨S2000x4, .f32⟩ : BufTy).Contents (Elt Ideal)) (q : Fin 2000) :
    val_main_v73 (F := Ideal) x2 (ix2 q 2) = hi (x2 (ix2 q 0)) (x2 (ix2 q 2)) := by
  refine (v73_col x2 q 2).trans ?_
  show val_main_v71 (F := Ideal) x2 (ix2 q 0) = _
  rw [val_main_v71_apply]
  exact (congrArg (val_main_v65 (F := Ideal) x2) (funext fun a => Fin.ext (by match a with | ⟨0, _⟩ => rfl))).trans
    (v65_at x2 q)

/-- Corner coordinate 3 of target q. -/
theorem v73_3 (x2 : (⟨S2000x4, .f32⟩ : BufTy).Contents (Elt Ideal)) (q : Fin 2000) :
    val_main_v73 (F := Ideal) x2 (ix2 q 3) = hi (x2 (ix2 q 1)) (x2 (ix2 q 3)) := by
  refine (v73_col x2 q 3).trans ?_
  show val_main_v72 (F := Ideal) x2 (ix2 q 0) = _
  rw [val_main_v72_apply]
  exact (congrArg (val_main_v68 (F := Ideal) x2) (funext fun a => Fin.ext (by match a with | ⟨0, _⟩ => rfl))).trans
    (v68_at x2 q)

end Cert.RefCost

end
-- ==== Proof.RefAreas.lean ====
/-
  The reference's box areas and the overlap area of a (query, target) pair, over the two arrays of corner boxes.
-/
import proofs.«163413_j39384850104993_1_alg».proof.Proof.Gen.ReferenceIdeal.Read
import proofs.«163413_j39384850104993_1_alg».proof.Proof.Spec
import proofs.«163413_j39384850104993_1_alg».proof.Proof.LibTrailingSums

noncomputable section

open scoped BigOperators

namespace Cert.RefCost

open Cert.ReferenceIdeal Cert.ReferenceIdeal.Read Idealize.ShloMosaic Idealize.ShloMosaic.ValueIdx Cert.MatchCost

/-- Column 2 of the query corner boxes, through its slice and its reshape. -/
theorem v75_at (x1 : (⟨S8x900x4, .f32⟩ : BufTy).Contents (Elt Ideal)) (n : Fin 7200) :
    val_main_v75 (F := Ideal) x1 (ix1 n) = val_main_v48 (F := Ideal) x1 (ix2 n 2) := by
  rw [val_main_v75_apply, val_main_v74_apply]
  exact congrArg (val_main_v48 (F := Ideal) x1) (funext fun a => Fin.ext (by match a with | ⟨0, _⟩ => exact Nat.div_one _ | ⟨1, _⟩ => rfl))

/-- Column 0 of the query corner boxes, through its slice and its reshape. -/
theorem v77_at (x1 : (⟨S8x900x4, .f32⟩ : BufTy).Contents (Elt Ideal)) (n : Fin 7200) :
    val_main_v77 (F := Ideal) x1 (ix1 n) = val_main_v48 (F := Ideal) x1 (ix2 n 0) := by
  rw [val_main_v77_apply, val_main_v76_apply]
  exact congrArg (val_main_v48 (F := Ideal) x1) (funext fun a => Fin.ext (by match a with | ⟨0, _⟩ => exact Nat.div_one _ | ⟨1, _⟩ => rfl))

/-- Column 3 of the query corner boxes, through its slice and its reshape. -/
theorem v80_at (x1 : (⟨S8x900x4, .f32⟩ : BufTy).Contents (Elt Ideal)) (n : Fin 7200) :
    val_main_v80 (F := Ideal) x1 (ix1 n) = val_main_v48 (F := Ideal) x1 (ix2 n 3) := by
  rw [val_main_v80_apply, val_main_v79_apply]
  exact congrArg (val_main_v48 (F := Ideal) x1) (funext fun a => Fin.ext (by match a with | ⟨0, _⟩ => exact Nat.div_one _ | ⟨1, _⟩ => rfl))

/-- Column 1 of the query corner boxes, through its slice and its reshape. -/
theorem v82_at (x1 : (⟨S8x900x4, .f32⟩ : BufTy).Contents (Elt Ideal)) (n : Fin 7200) :
    val_main_v82 (F := Ideal) x1 (ix1 n) = val_main_v48 (F := Ideal) x1 (ix2 n 1) := by
  rw [val_main_v82_apply, val_main_v81_apply]
  exact congrArg (val_main_v48 (F := Ideal) x1) (funext fun a => Fin.ext (by match a with | ⟨0, _⟩ => exact Nat.div_one _ | ⟨1, _⟩ => rfl))

/-- The area of query n's corner box. -/
theorem v84_at (x1 : (⟨S8x900x4, .f32⟩ : BufTy).Contents (Elt Ideal)) (n : Fin 7200) :
    val_main_v84 (F := Ideal) x1 (ix1 n) = boxArea (val_main_v48 (F := Ideal) x1 (ix2 n 0)) (val_main_v48 (F := Ideal) x1 (ix2 n 1)) (val_main_v48 (F := Ideal) x1 (ix2 n 2)) (val_main_v48 (F := Ideal) x1 (ix2 n 3)) := by
  rw [val_main_v84_apply, val_main_v78_apply, val_main_v83_apply, v75_at, v77_at, v80_at, v82_at]
  rfl

/-- Column 2 of the target corner boxes, through its slice and its reshape. -/
theorem v86_at (x2 : (⟨S2000x4, .f32⟩ : BufTy).Contents (Elt Ideal)) (q : Fin 2000) :
    val_main_v86 (F := Ideal) x2 (ix1 q) = val_main_v73 (F := Ideal) x2 (ix2 q 2) := by
  rw [val_main_v86_apply, val_main_v85_apply]
  exact congrArg (val_main_v73 (F := Ideal) x2) (funext fun a => Fin.ext (by match a with | ⟨0, _⟩ => exact Nat.div_one _ | ⟨1, _⟩ => rfl))

/-- Column 0 of the target corner boxes, through its slice and its reshape. -/
theorem v88_at (x2 : (⟨S2000x4, .f32⟩ : BufTy).Contents (Elt Ideal)) (q : Fin 2000) :
    val_main_v88 (F := Ideal) x2 (ix1 q) = val_main_v73 (F := Ideal) x2 (ix2 q 0) := by
  rw [val_main_v88_apply, val_main_v87_apply]
  exact congrArg (val_main_v73 (F := Ideal) x2) (funext fun a => Fin.ext (by match a with | ⟨0, _⟩ => exact Nat.div_one _ | ⟨1, _⟩ => rfl))

/-- Column 3 of the target corner boxes, through its slice and its reshape. -/
theorem v91_at (x2 : (⟨S2000x4, .f32⟩ : BufTy).Contents (Elt Ideal)) (q : Fin 2000) :
    val_main_v91 (F := Ideal) x2 (ix1 q) = val_main_v73 (F := Ideal) x2 (ix2 q 3) := by
  rw [val_main_v91_apply, val_main_v90_apply]
  exact congrArg (val_main_v73 (F := Ideal) x2) (funext fun a => Fin.ext (by match a with | ⟨0, _⟩ => exact Nat.div_one _ | ⟨1, _⟩ => rfl))

/-- Column 1 of the target corner boxes, through its slice and its reshape. -/
theorem v93_at (x2 : (⟨S2000x4, .f32⟩ : BufTy).Contents (Elt Ideal)) (q : Fin 2000) :
    val_main_v93 (F := Ideal) x2 (ix1 q) = val_main_v73 (F := Ideal) x2 (ix2 q 1) := by
  rw [val_main_v93_apply, val_main_v92_apply]
  exact congrArg (val_main_v73 (F := Ideal) x2) (funext fun a => Fin.ext (by match a with | ⟨0, _⟩ => exact Nat.div_one _ | ⟨1, _⟩ => rfl))

/-- The area of target q's corner box. -/
theorem v95_at (x2 : (⟨S2000x4, .f32⟩ : BufTy).Contents (Elt Ideal)) (q : Fin 2000) :
    val_main_v95 (F := Ideal) x2 (ix1 q) = boxArea (val_main_v73 (F := Ideal) x2 (ix2 q 0)) (val_main_v73 (F := Ideal) x2 (ix2 q 1)) (val_main_v73 (F := Ideal) x2 (ix2 q 2)) (val_main_v73 (F := Ideal) x2 (ix2 q 3)) := by
  rw [val_main_v95_apply, val_main_v89_apply, val_main_v94_apply, v86_at, v88_at, v91_at, v93_at]
  rfl

/-- The lower and the upper corner column of axis d (d = 0: x, d = 1: y) among the four corner columns. -/
abbrev dn (d : Fin 2) : Fin 4 := ⟨d.val, by have := d.isLt; omega⟩
abbrev up (d : Fin 2) : Fin 4 := ⟨2 + d.val, by have := d.isLt; omega⟩

/-- The lower corner coordinate of axis d of query n, spread over all pairs. -/
theorem v100_at (x1 : (⟨S8x900x4, .f32⟩ : BufTy).Contents (Elt Ideal)) (n : Fin 7200) (q : Fin 2000) (d : Fin 2) :
    val_main_v100 (F := Ideal) x1 (ix3 n q d) = val_main_v48 (F := Ideal) x1 (ix2 n (dn d)) := by
  rw [val_main_v100_apply, val_main_v97_apply, val_main_v96_apply]
  exact congrArg (val_main_v48 (F := Ideal) x1) (funext fun a => Fin.ext (by match a with | ⟨0, _⟩ => rfl | ⟨1, _⟩ => rfl))

/-- The lower corner coordinate of axis d of target q, spread over all pairs. -/
theorem v101_at (x2 : (⟨S2000x4, .f32⟩ : BufTy).Contents (Elt Ideal)) (n : Fin 7200) (q : Fin 2000) (d : Fin 2) :
    val_main_v101 (F := Ideal) x2 (ix3 n q d) = val_main_v73 (F := Ideal) x2 (ix2 q (dn d)) := by
  rw [val_main_v101_apply, val_main_v99_apply, val_main_v98_apply]
  exact congrArg (val_main_v73 (F := Ideal) x2) (funext fun a => Fin.ext (by match a with | ⟨0, _⟩ => rfl | ⟨1, _⟩ => rfl))

/-- The upper corner coordinate of axis d of query n, spread over all pairs. -/
theorem v107_at (x1 : (⟨S8x900x4, .f32⟩ : BufTy).Contents (Elt Ideal)) (n : Fin 7200) (q : Fin 2000) (d : Fin 2) :
    val_main_v107 (F := Ideal) x1 (ix3 n q d) = val_main_v48 (F := Ideal) x1 (ix2 n (up d)) := by
  rw [val_main_v107_apply, val_main_v104_apply, val_main_v103_apply]
  exact congrArg (val_main_v48 (F := Ideal) x1) (funext fun a => Fin.ext (by match a with | ⟨0, _⟩ => rfl | ⟨1, _⟩ => rfl))

/-- The upper corner coordinate of axis d of target q, spread over all pairs. -/
theorem v108_at (x2 : (⟨S2000x4, .f32⟩ : BufTy).Contents (Elt Ideal)) (n : Fin 7200) (q : Fin 2000) (d : Fin 2) :
    val_main_v108 (F := Ideal) x2 (ix3 n q d) = val_main_v73 (F := Ideal) x2 (ix2 q (up d)) := by
  rw [val_main_v108_apply, val_main_v106_apply, val_main_v105_apply]
  exact congrArg (val_main_v73 (F := Ideal) x2) (funext fun a => Fin.ext (by match a with | ⟨0, _⟩ => rfl | ⟨1, _⟩ => rfl))

/-- The clipped overlap length along axis d: max(0, min of the upper corners − max of the lower corners). -/
theorem v111_at (x1 : (⟨S8x900x4, .f32⟩ : BufTy).Contents (Elt Ideal)) (x2 : (⟨S2000x4, .f32⟩ : BufTy).Contents (Elt Ideal)) (n : Fin 7200) (q : Fin 2000) (d : Fin 2) :
    val_main_v111 (F := Ideal) x1 x2 (ix3 n q d)
      = clip0 (min (val_main_v48 (F := Ideal) x1 (ix2 n (up d))) (val_main_v73 (F := Ideal) x2 (ix2 q (up d)))
          - max (val_main_v48 (F := Ideal) x1 (ix2 n (dn d))) (val_main_v73 (F := Ideal) x2 (ix2 q (dn d)))) := by
  rw [val_main_v111_apply, val_main_call1_v1_apply, val_main_call1_v0_apply, val_main_cst_14_apply,
    val_main_v110_apply, val_main_v109_apply, val_main_v102_apply, v100_at, v101_at, v107_at, v108_at]
  rfl

/-- The pair array's layer 0, through its slice and its reshape. -/
theorem v113_at (x1 : (⟨S8x900x4, .f32⟩ : BufTy).Contents (Elt Ideal)) (x2 : (⟨S2000x4, .f32⟩ : BufTy).Contents (Elt Ideal)) (n : Fin 7200) (q : Fin 2000) :
    val_main_v113 (F := Ideal) x1 x2 (ix2 n q) = val_main_v111 (F := Ideal) x1 x2 (ix3 n q 0) := by
  rw [val_main_v113_apply, val_main_v112_apply]
  have hq := q.isLt
  exact congrArg (val_main_v111 (F := Ideal) x1 x2) (funext fun a => Fin.ext (by
    match a with
    | ⟨0, _⟩ => show (n.val * 2000 + q.val) / 2000 = n.val; omega
    | ⟨1, _⟩ => show (n.val * 2000 + q.val) / 1 % 2000 = q.val; omega
    | ⟨2, _⟩ => rfl))

/-- The pair array's layer 1, through its slice and its reshape. -/
theorem v115_at (x1 : (⟨S8x900x4, .f32⟩ : BufTy).Contents (Elt Ideal)) (x2 : (⟨S2000x4, .f32⟩ : BufTy).Contents (Elt Ideal)) (n : Fin 7200) (q : Fin 2000) :
    val_main_v115 (F := Ideal) x1 x2 (ix2 n q) = val_main_v111 (F := Ideal) x1 x2 (ix3 n q 1) := by
  rw [val_main_v115_apply, val_main_v114_apply]
  have hq := q.isLt
  exact congrArg (val_main_v111 (F := Ideal) x1 x2) (funext fun a => Fin.ext (by
    match a with
    | ⟨0, _⟩ => show (n.val * 2000 + q.val) / 2000 = n.val; omega
    | ⟨1, _⟩ => show (n.val * 2000 + q.val) / 1 % 2000 = q.val; omega
    | ⟨2, _⟩ => rfl))

/-- The overlap area of query n's and target q's corner boxes. -/
theorem v116_at (x1 : (⟨S8x900x4, .f32⟩ : BufTy).Contents (Elt Ideal)) (x2 : (⟨S2000x4, .f32⟩ : BufTy).Contents (Elt Ideal)) (n : Fin 7200) (q : Fin 2000) :
    val_main_v116 (F := Ideal) x1 x2 (ix2 n q)
      = overlap (val_main_v48 (F := Ideal) x1 (ix2 n 0)) (val_main_v48 (F := Ideal) x1 (ix2 n 1)) (val_main_v48 (F := Ideal) x1 (ix2 n 2)) (val_main_v48 (F := Ideal) x1 (ix2 n 3)) (val_main_v73 (F := Ideal) x2 (ix2 q 0)) (val_main_v73 (F := Ideal) x2 (ix2 q 1)) (val_main_v73 (F := Ideal) x2 (ix2 q 2)) (val_main_v73 (F := Ideal) x2 (ix2 q 3)) := by
  rw [val_main_v116_apply, v113_at, v115_at, v111_at, v111_at]
  rfl

end Cert.RefCost

end
-- ==== Proof.RefHull.lean ====
/-
  The reference's enclosing-rectangle area of a (query, target) pair, over the two arrays of corner boxes.
-/
import proofs.«163413_j39384850104993_1_alg».proof.Proof.Gen.ReferenceIdeal.Read
import proofs.«163413_j39384850104993_1_alg».proof.Proof.Spec
import proofs.«163413_j39384850104993_1_alg».proof.Proof.LibTrailingSums

noncomputable section

open scoped BigOperators

namespace Cert.RefCost

open Cert.ReferenceIdeal Cert.ReferenceIdeal.Read Idealize.ShloMosaic Idealize.ShloMosaic.ValueIdx Cert.MatchCost

/-- The lower and the upper corner column of axis d (d = 0: x, d = 1: y) among the four corner columns. -/
abbrev dnH (d : Fin 2) : Fin 4 := ⟨d.val, by have := d.isLt; omega⟩
abbrev upH (d : Fin 2) : Fin 4 := ⟨2 + d.val, by have := d.isLt; omega⟩

/-- The upper corner coordinate of axis d of query n, spread over all pairs. -/
theorem v130_at (x1 : (⟨S8x900x4, .f32⟩ : BufTy).Contents (Elt Ideal)) (n : Fin 7200) (q : Fin 2000) (d : Fin 2) :
    val_main_v130 (F := Ideal) x1 (ix3 n q d) = val_main_v48 (F := Ideal) x1 (ix2 n (dnH d)) := by
  rw [val_main_v130_apply, val_main_v127_apply, val_main_v126_apply]
  exact congrArg (val_main_v48 (F := Ideal) x1) (funext fun a => Fin.ext (by match a with | ⟨0, _⟩ => rfl | ⟨1, _⟩ => rfl))

/-- The upper corner coordinate of axis d of target q, spread over all pairs. -/
theorem v131_at (x2 : (⟨S2000x4, .f32⟩ : BufTy).Contents (Elt Ideal)) (n : Fin 7200) (q : Fin 2000) (d : Fin 2) :
    val_main_v131 (F := Ideal) x2 (ix3 n q d) = val_main_v73 (F := Ideal) x2 (ix2 q (dnH d)) := by
  rw [val_main_v131_apply, val_main_v129_apply, val_main_v128_apply]
  exact congrArg (val_main_v73 (F := Ideal) x2) (funext fun a => Fin.ext (by match a with | ⟨0, _⟩ => rfl | ⟨1, _⟩ => rfl))

/-- The upper corner coordinate of axis d of query n, spread over all pairs. -/
theorem v137_at (x1 : (⟨S8x900x4, .f32⟩ : BufTy).Contents (Elt Ideal)) (n : Fin 7200) (q : Fin 2000) (d : Fin 2) :
    val_main_v137 (F := Ideal) x1 (ix3 n q d) = val_main_v48 (F := Ideal) x1 (ix2 n (upH d)) := by
  rw [val_main_v137_apply, val_main_v134_apply, val_main_v133_apply]
  exact congrArg (val_main_v48 (F := Ideal) x1) (funext fun a => Fin.ext (by match a with | ⟨0, _⟩ => rfl | ⟨1, _⟩ => rfl))

/-- The upper corner coordinate of axis d of target q, spread over all pairs. -/
theorem v138_at (x2 : (⟨S2000x4, .f32⟩ : BufTy).Contents (Elt Ideal)) (n : Fin 7200) (q : Fin 2000) (d : Fin 2) :
    val_main_v138 (F := Ideal) x2 (ix3 n q d) = val_main_v73 (F := Ideal) x2 (ix2 q (upH d)) := by
  rw [val_main_v138_apply, val_main_v136_apply, val_main_v135_apply]
  exact congrArg (val_main_v73 (F := Ideal) x2) (funext fun a => Fin.ext (by match a with | ⟨0, _⟩ => rfl | ⟨1, _⟩ => rfl))

/-- The clipped side of the enclosing rectangle along axis d: max(0, max of the upper corners − min of the lower corners). -/
theorem v141_at (x1 : (⟨S8x900x4, .f32⟩ : BufTy).Contents (Elt Ideal)) (x2 : (⟨S2000x4, .f32⟩ : BufTy).Contents (Elt Ideal)) (n : Fin 7200) (q : Fin 2000) (d : Fin 2) :
    val_main_v141 (F := Ideal) x1 x2 (ix3 n q d)
      = clip0 (max (val_main_v48 (F := Ideal) x1 (ix2 n (upH d))) (val_main_v73 (F := Ideal) x2 (ix2 q (upH d)))
          - min (val_main_v48 (F := Ideal) x1 (ix2 n (dnH d))) (val_main_v73 (F := Ideal) x2 (ix2 q (dnH d)))) := by
  rw [val_main_v141_apply, val_main_call2_v1_apply, val_main_call2_v0_apply, val_main_cst_16_apply,
    val_main_v140_apply, val_main_v139_apply, val_main_v132_apply, v130_at, v131_at, v137_at, v138_at]
  rfl

/-- The pair array's layer 0, through its slice and its reshape. -/
theorem v143_at (x1 : (⟨S8x900x4, .f32⟩ : BufTy).Contents (Elt Ideal)) (x2 : (⟨S2000x4, .f32⟩ : BufTy).Contents (Elt Ideal)) (n : Fin 7200) (q : Fin 2000) :
    val_main_v143 (F := Ideal) x1 x2 (ix2 n q) = val_main_v141 (F := Ideal) x1 x2 (ix3 n q 0) := by
  rw [val_main_v143_apply, val_main_v142_apply]
  have hq := q.isLt
  exact congrArg (val_main_v141 (F := Ideal) x1 x2) (funext fun a => Fin.ext (by
    match a with
    | ⟨0, _⟩ => show (n.val * 2000 + q.val) / 2000 = n.val; omega
    | ⟨1, _⟩ => show (n.val * 2000 + q.val) / 1 % 2000 = q.val; omega
    | ⟨2, _⟩ => rfl))

/-- The pair array's layer 1, through its slice and its reshape. -/
theorem v145_at (x1 : (⟨S8x900x4, .f32⟩ : BufTy).Contents (Elt Ideal)) (x2 : (⟨S2000x4, .f32⟩ : BufTy).Contents (Elt Ideal)) (n : Fin 7200) (q : Fin 2000) :
    val_main_v145 (F := Ideal) x1 x2 (ix2 n q) = val_main_v141 (F := Ideal) x1 x2 (ix3 n q 1) := by
  rw [val_main_v145_apply, val_main_v144_apply]
  have hq := q.isLt
  exact congrArg (val_main_v141 (F := Ideal) x1 x2) (funext fun a => Fin.ext (by
    match a with
    | ⟨0, _⟩ => show (n.val * 2000 + q.val) / 2000 = n.val; omega
    | ⟨1, _⟩ => show (n.val * 2000 + q.val) / 1 % 2000 = q.val; omega
    | ⟨2, _⟩ => rfl))

/-- The area of the smallest rectangle enclosing query n's and target q's corner boxes. -/
theorem v146_at (x1 : (⟨S8x900x4, .f32⟩ : BufTy).Contents (Elt Ideal)) (x2 : (⟨S2000x4, .f32⟩ : BufTy).Contents (Elt Ideal)) (n : Fin 7200) (q : Fin 2000) :
    val_main_v146 (F := Ideal) x1 x2 (ix2 n q)
      = hullArea (val_main_v48 (F := Ideal) x1 (ix2 n 0)) (val_main_v48 (F := Ideal) x1 (ix2 n 1)) (val_main_v48 (F := Ideal) x1 (ix2 n 2)) (val_main_v48 (F := Ideal) x1 (ix2 n 3)) (val_main_v73 (F := Ideal) x2 (ix2 q 0)) (val_main_v73 (F := Ideal) x2 (ix2 q 1)) (val_main_v73 (F := Ideal) x2 (ix2 q 2)) (val_main_v73 (F := Ideal) x2 (ix2 q 3)) := by
  rw [val_main_v146_apply, v143_at, v145_at, v141_at, v141_at]
  rfl

end Cert.RefCost

end
-- ==== Proof.RefGiou.lean ====
/-
  The reference's union area, generalised IoU and GIoU term of a (query, target) pair, over the areas
  computed before them.
-/
import proofs.«163413_j39384850104993_1_alg».proof.Proof.Gen.ReferenceIdeal.Read
import proofs.«163413_j39384850104993_1_alg».proof.Proof.Spec
import proofs.«163413_j39384850104993_1_alg».proof.Proof.LibTrailingSums

noncomputable section

open scoped BigOperators

namespace Cert.RefCost

open Cert.ReferenceIdeal Cert.ReferenceIdeal.Read Idealize.ShloMosaic Idealize.ShloMosaic.ValueIdx Cert.MatchCost

/-- The area of query n's box, spread over all pairs. -/
theorem v119_at (x1 : (⟨S8x900x4, .f32⟩ : BufTy).Contents (Elt Ideal)) (n : Fin 7200) (q : Fin 2000) :
    val_main_v119 (F := Ideal) x1 (ix2 n q) = val_main_v84 (F := Ideal) x1 (ix1 n) := by
  rw [val_main_v119_apply, val_main_v117_apply]
  exact congrArg (val_main_v84 (F := Ideal) x1) (funext fun a => Fin.ext (by match a with | ⟨0, _⟩ => rfl))

/-- The area of target q's box, spread over all pairs. -/
theorem v120_at (x2 : (⟨S2000x4, .f32⟩ : BufTy).Contents (Elt Ideal)) (n : Fin 7200) (q : Fin 2000) :
    val_main_v120 (F := Ideal) x2 (ix2 n q) = val_main_v95 (F := Ideal) x2 (ix1 q) := by
  rw [val_main_v120_apply, val_main_v118_apply]
  exact congrArg (val_main_v95 (F := Ideal) x2) (funext fun a => Fin.ext (by match a with | ⟨0, _⟩ => rfl))

/-- The union's area: the two areas' sum minus the overlap. -/
theorem v122_at (x1 : (⟨S8x900x4, .f32⟩ : BufTy).Contents (Elt Ideal)) (x2 : (⟨S2000x4, .f32⟩ : BufTy).Contents (Elt Ideal)) (n : Fin 7200) (q : Fin 2000) :
    val_main_v122 (F := Ideal) x1 x2 (ix2 n q)
      = unionArea (val_main_v84 (F := Ideal) x1 (ix1 n)) (val_main_v95 (F := Ideal) x2 (ix1 q))
          (val_main_v116 (F := Ideal) x1 x2 (ix2 n q)) := by
  rw [val_main_v122_apply, val_main_v121_apply, v119_at, v120_at]
  rfl

/-- The generalised IoU of the pair from its overlap, union and enclosing-rectangle areas. -/
theorem v151_at (x1 : (⟨S8x900x4, .f32⟩ : BufTy).Contents (Elt Ideal)) (x2 : (⟨S2000x4, .f32⟩ : BufTy).Contents (Elt Ideal)) (n : Fin 7200) (q : Fin 2000) :
    val_main_v151 (F := Ideal) x1 x2 (ix2 n q)
      = giouOf (val_main_v116 (F := Ideal) x1 x2 (ix2 n q)) (val_main_v122 (F := Ideal) x1 x2 (ix2 n q))
          (val_main_v146 (F := Ideal) x1 x2 (ix2 n q)) := by
  rw [val_main_v151_apply, val_main_v125_apply, val_main_v124_apply, val_main_v123_apply, val_main_cst_15_apply,
    val_main_v150_apply, val_main_v149_apply, val_main_v148_apply, val_main_cst_17_apply, val_main_v147_apply]
  rfl

/-- The GIoU term: minus the generalised IoU clamped at −1 from below. -/
theorem v153_at (x1 : (⟨S8x900x4, .f32⟩ : BufTy).Contents (Elt Ideal)) (x2 : (⟨S2000x4, .f32⟩ : BufTy).Contents (Elt Ideal)) (n : Fin 7200) (q : Fin 2000) :
    val_main_v153 (F := Ideal) x1 x2 (ix2 n q)
      = -(max cNegOne (val_main_v151 (F := Ideal) x1 x2 (ix2 n q))) := by
  rw [val_main_v153_apply, val_main_v152_apply, val_main_call3_v1_apply, val_main_call3_v0_apply,
    val_main_cst_18_apply]
  rfl

end Cert.RefCost

end
-- ==== Proof.RefCost.lean ====
/-
  The reference's result, entry by entry, is the matching cost: 5·L1 + 1·class + 2·giou.
-/
import proofs.«163413_j39384850104993_1_alg».proof.Proof.RefCls
import proofs.«163413_j39384850104993_1_alg».proof.Proof.RefBoxes
import proofs.«163413_j39384850104993_1_alg».proof.Proof.RefAreas
import proofs.«163413_j39384850104993_1_alg».proof.Proof.RefHull
import proofs.«163413_j39384850104993_1_alg».proof.Proof.RefGiou

noncomputable section

open scoped BigOperators

namespace Cert.RefCost

open Cert.ReferenceIdeal Cert.ReferenceIdeal.Read Idealize.ShloMosaic Idealize.ShloMosaic.ValueIdx Cert.MatchCost

/-- The GIoU term of the pair, over the query's and the target's boxes in centre form. -/
theorem giou_at (x1 : (⟨S8x900x4, .f32⟩ : BufTy).Contents (Elt Ideal)) (x2 : (⟨S2000x4, .f32⟩ : BufTy).Contents (Elt Ideal)) (n : Fin 7200) (q : Fin 2000) :
    val_main_v153 (F := Ideal) x1 x2 (ix2 n q) = giouCost (fun c => val_main_v8 (F := Ideal) x1 (ix2 n c)) (fun c => x2 (ix2 q c)) := by
  rw [v153_at, v151_at, v146_at, v122_at, v116_at, v84_at, v95_at, v48_0, v48_1, v48_2, v48_3, v73_0, v73_1, v73_2,
    v73_3]
  rfl

/-- Entry (n, q) of the reference's result is the matching cost of query n against target q. -/
theorem ref_entry (x0 : (⟨S8x900x256, .f32⟩ : BufTy).Contents (Elt Ideal)) (x1 : (⟨S8x900x4, .f32⟩ : BufTy).Contents (Elt Ideal)) (x2 : (⟨S2000x4, .f32⟩ : BufTy).Contents (Elt Ideal)) (x3 : (⟨S2000x256, .f32⟩ : BufTy).Contents (Elt Ideal)) (n : Fin 7200) (q : Fin 2000) :
    val_main_v161 (F := Ideal) x0 x1 x2 x3 (ix2 n q)
      = cost (fun k => val_main_v0 (F := Ideal) x0 (ix2 n k)) (fun k => val_main_v14 (F := Ideal) x3 (ix2 q k))
          (fun c => val_main_v8 (F := Ideal) x1 (ix2 n c)) (fun c => x2 (ix2 q c)) := by
  rw [val_main_v161_apply, val_main_v158_apply, val_main_v155_apply, val_main_v154_apply, val_main_cst_19_apply,
    val_main_v157_apply, val_main_v156_apply, val_main_cst_20_apply, val_main_v160_apply, val_main_v159_apply,
    val_main_cst_21_apply, v23_at, v16_at, giou_at]
  rfl

/-- The reference's result is the cost matrix of the reshaped logits and boxes against the targets and the normalised weights. -/
theorem ref_matrix (x0 : (⟨S8x900x256, .f32⟩ : BufTy).Contents (Elt Ideal)) (x1 : (⟨S8x900x4, .f32⟩ : BufTy).Contents (Elt Ideal)) (x2 : (⟨S2000x4, .f32⟩ : BufTy).Contents (Elt Ideal)) (x3 : (⟨S2000x256, .f32⟩ : BufTy).Contents (Elt Ideal)) :
    val_main_v161 (F := Ideal) x0 x1 x2 x3
      = costMatrix (val_main_v0 (F := Ideal) x0) (val_main_v8 (F := Ideal) x1) x2 (val_main_v14 (F := Ideal) x3) := by
  funext i
  rw [eq_ix2 i]
  exact ref_entry x0 x1 x2 x3 (i 0) (i 1)

end Cert.RefCost

end
-- ==== Proof.lean ====
/-
  The matching-cost kernel against its reference, over the extended reals.

  Both programs compute, for 7200 queries (8 × 900, each a row of 256 logits and a box) and 2000 targets (each a row of
  256 label weights and a box), the matrix of costs 5·L1 + 1·class + 2·giou (Proof/Spec.lean). Both first reshape the
  queries to 7200 rows and divide each target's label weights by their sum plus ε, and both end by reshaping the
  [7200, 2000] matrix to [8, 900, 2000]; these steps are the same terms on both sides and are never opened.

  The kernel: grid point t holds query rows 360·t … 360·t + 359 and every target; entry (p, q) of the tile it stores is
  the cost of its query row p against target q (the class term as a matrix product with the transposed weights, the box
  terms from column vectors spread over the tile: Proof/KPay.lean, Proof/KStored.lean), and the twenty tiles fill the
  result (Proof/KEntry.lean). The reference: the same entry read off its host operations one at a time
  (Proof/RefCls.lean … Proof/RefCost.lean). The two entries differ only in the order of commutative operations
  (max, min), in zero minus x for −x, and in the L1 sum added term by term from zero instead of as one sum; none of
  these needs finiteness, so the precondition is never opened. The ideal pass rewrote nothing, so `preserves` is trivial.
-/
import proofs.«163413_j39384850104993_1_alg».proof.Defs
import proofs.«163413_j39384850104993_1_alg».proof.Proof.Gen.Kernel
import proofs.«163413_j39384850104993_1_alg».proof.Proof.Gen.Kernel.Skeleton
import proofs.«163413_j39384850104993_1_alg».proof.Proof.Gen.Kernel.Launch
import proofs.«163413_j39384850104993_1_alg».proof.Proof.Gen.Kernel.Points
import proofs.«163413_j39384850104993_1_alg».proof.Proof.Gen.Kernel.Frame
import proofs.«163413_j39384850104993_1_alg».proof.Proof.Gen.KernelIdeal
import proofs.«163413_j39384850104993_1_alg».proof.Proof.Gen.KernelIdeal.Skeleton
import proofs.«163413_j39384850104993_1_alg».proof.Proof.Gen.KernelIdeal.Launch
import proofs.«163413_j39384850104993_1_alg».proof.Proof.Gen.KernelIdeal.Points
import proofs.«163413_j39384850104993_1_alg».proof.Proof.Gen.KernelIdeal.Frame
import proofs.«163413_j39384850104993_1_alg».proof.Proof.Gen.ReferenceIdeal
import proofs.«163413_j39384850104993_1_alg».proof.Proof.Gen.Pre_finite_inputs
import proofs.«163413_j39384850104993_1_alg».proof.Proof.Gen.ReferenceIdeal.Run
import proofs.«163413_j39384850104993_1_alg».proof.Proof.Gen.ReferenceIdeal.Read
import proofs.«163413_j39384850104993_1_alg».proof.Proof.KEntry
import proofs.«163413_j39384850104993_1_alg».proof.Proof.RefCost
import Idealize.ShloMosaic.Adequacy
import Idealize.ShloMosaic.Init

noncomputable section

namespace Cert.Proof

open Idealize.ShloMosaic Idealize.SL.Sem

/-- The three programs run to the end without a fault and leave their arguments as they were. -/
theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the arguments the kernel and the reference end with the same result: the cost matrix
    of the reshaped queries against the targets with their normalised weights, reshaped to [8, 900, 2000]. -/
theorem algebraic : Cert.algebraic_KernelIdeal_ReferenceIdeal := by
  intro m ρ m' ρ' _ hagree
  refine ⟨_, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v162_eq, (hagree c).1, (hagree c).2.1, (hagree c).2.2.1, (hagree c).2.2.2,
    Cert.KernelIdeal.Tile.result_eq]
  unfold Cert.ReferenceIdeal.Read.val_main_v162
  rw [Cert.RefCost.ref_matrix]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
